-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v17)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v17) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v27) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S800000x16 : Shape := ⟨2, ![800000, 16]⟩
abbrev S800000x128 : Shape := ⟨2, ![800000, 128]⟩
abbrev S144x128 : Shape := ⟨2, ![144, 128]⟩
abbrev S128 : Shape := ⟨1, ![128]⟩
abbrev S128x128 : Shape := ⟨2, ![128, 128]⟩
abbrev S800000 : Shape := ⟨1, ![800000]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S800000x16 : S_.BroadcastsInDim S800000x16 (![] : Fin 0 → Fin S800000x16.rank)
  reducesTo_S800000x16_S_d0_1 : S800000x16.ReducesTo [0, 1] S_
  bcast_S_S800000x128 : S_.BroadcastsInDim S800000x128 (![] : Fin 0 → Fin S800000x128.rank)
  reducesTo_S800000x128_S_d0_1 : S800000x128.ReducesTo [0, 1] S_
  bcast_S_S144x128 : S_.BroadcastsInDim S144x128 (![] : Fin 0 → Fin S144x128.rank)
  reducesTo_S144x128_S_d0_1 : S144x128.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_

variable [Facts]

def fn_part1 {F : FTy → Type} [FloatOps F] (main_arg4 : FVec F S128 .f32) (main_arg5 : FVec F S128x128 .f32) (main_arg6 : FVec F S128 .f32) (main_v13 : IVec S_ 1) (main_v16 : IVec S144x128 1) : IVec S_ 1 :=
  let main_c_5 : IVec S_ 1 := constantI S_ 1 1#1
  let main_v17 : IVec S_ 1 := (fun x v => Host.reduce IntOp.andi x v reducesTo_S144x128_S_d0_1 h_S_) main_v16 main_c_5
  let main_v18 : IVec S_ 1 := andi main_v13 main_v17
  let main_v19 : FVec F S128 .f32 := Host.absf main_arg4
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x128 .f32 := Host.absf main_arg5
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg6
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  main_v33

def fn {F : FTy → Type} [FloatOps F] (main_arg0 : FVec F S50000x128 .f32) (main_arg1 : FVec F S800000x16 .f32) (main_arg2 : FVec F S800000x128 .f32) (main_arg3 : FVec F S144x128 .f32) (main_arg4 : FVec F S128 .f32) (main_arg5 : FVec F S128x128 .f32) (main_arg6 : FVec F S128 .f32) (main_arg7 : IVec S800000 32) (main_arg8 : IVec S800000 32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S800000x16 .f32 := Host.absf main_arg1
  let main_cst_0 : FVec F S_ .f32 := constant S_ .f32 0x7F800000#32
  let main_v5 : FVec F S800000x16 .f32 := broadcastInDim S800000x16 ![] bcast_S_S800000x16 main_cst_0
  let main_v6 : IVec S800000x16 1 := cmpf .olt main_v4 main_v5
  let main_c_1 : IVec S_ 1 := constantI S_ 1 1#1
  let main_v7 : IVec S_ 1 := (fun x v => Host.reduce IntOp.andi x v reducesTo_S800000x16_S_d0_1 h_S_) main_v6 main_c_1
  let main_v8 : IVec S_ 1 := andi main_v3 main_v7
  let main_v9 : FVec F S800000x128 .f32 := Host.absf main_arg2
  let main_cst_2 : FVec F S_ .f32 := constant S_ .f32 0x7F800000#32
  let main_v10 : FVec F S800000x128 .f32 := broadcastInDim S800000x128 ![] bcast_S_S800000x128 main_cst_2
  let main_v11 : IVec S800000x128 1 := cmpf .olt main_v9 main_v10
  let main_c_3 : IVec S_ 1 := constantI S_ 1 1#1
  let main_v12 : IVec S_ 1 := (fun x v => Host.reduce IntOp.andi x v reducesTo_S800000x128_S_d0_1 h_S_) main_v11 main_c_3
  let main_v13 : IVec S_ 1 := andi main_v8 main_v12
  let main_v14 : FVec F S144x128 .f32 := Host.absf main_arg3
  let main_cst_4 : FVec F S_ .f32 := constant S_ .f32 0x7F800000#32
  let main_v15 : FVec F S144x128 .f32 := broadcastInDim S144x128 ![] bcast_S_S144x128 main_cst_4
  let main_v16 : IVec S144x128 1 := cmpf .olt main_v14 main_v15
  fn_part1 (F := F) main_arg4 main_arg5 main_arg6 main_v13 main_v16
-- ==== Kernel.lean ====
abbrev S50000x128 : Shape := ⟨2, ![50000, 128]⟩
abbrev S800000x16 : Shape := ⟨2, ![800000, 16]⟩
abbrev S800000x128 : Shape := ⟨2, ![800000, 128]⟩
abbrev S144x128 : Shape := ⟨2, ![144, 128]⟩
abbrev S128 : Shape := ⟨1, ![128]⟩
abbrev S128x128 : Shape := ⟨2, ![128, 128]⟩
abbrev S800000 : Shape := ⟨1, ![800000]⟩
abbrev S_ : Shape := ⟨0, ![]⟩
abbrev S800000x1 : Shape := ⟨2, ![800000, 1]⟩
abbrev S16x128 : Shape := ⟨2, ![16, 128]⟩
abbrev S1x128 : Shape := ⟨2, ![1, 128]⟩
abbrev S6400x128 : Shape := ⟨2, ![6400, 128]⟩
abbrev S6400x16 : Shape := ⟨2, ![6400, 16]⟩

abbrev nBuf : Space → Nat
  | .hbm => 30
  | .vmem => 11
  | .smem => 0
  | _ => 0

abbrev bufTy : (tb : Table) → Fin (tcTables nBuf tb) → BufTy
  | .hbm, ⟨0, _⟩ => ⟨S50000x128, .f32⟩
  | .hbm, ⟨1, _⟩ => ⟨S800000x16, .f32⟩
  | .hbm, ⟨2, _⟩ => ⟨S800000x128, .f32⟩
  | .hbm, ⟨3, _⟩ => ⟨S144x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S800000, .i32⟩
  | .hbm, ⟨8, _⟩ => ⟨S800000, .i32⟩
  | .hbm, ⟨9, _⟩ => ⟨S_, .f32⟩
  | .hbm, ⟨10, _⟩ => ⟨S50000x128, .f32⟩
  | .hbm, ⟨11, _⟩ => ⟨S800000x1, .i32⟩
  | .hbm, ⟨12, _⟩ => ⟨S50000x128, .f32⟩
  | .hbm, ⟨13, _⟩ => ⟨S128x128, .f32⟩
  | .hbm, ⟨14, _⟩ => ⟨S16x128, .f32⟩
  | .hbm, ⟨15, _⟩ => ⟨S50000x128, .f32⟩
  | .hbm, ⟨16, _⟩ => ⟨S50000x128, .f32⟩
  | .hbm, ⟨17, _⟩ => ⟨S50000x128, .f32⟩
  | .hbm, ⟨18, _⟩ => ⟨S_, .i32⟩
  | .hbm, ⟨19, _⟩ => ⟨S800000, .i32⟩
  | .hbm, ⟨20, _⟩ => ⟨S800000, .i1⟩
  | .hbm, ⟨21, _⟩ => ⟨S_, .i32⟩
  | .hbm, ⟨22, _⟩ => ⟨S800000, .i32⟩
  | .hbm, ⟨23, _⟩ => ⟨S800000, .i32⟩
  | .hbm, ⟨24, _⟩ => ⟨S800000, .i32⟩
  | .hbm, ⟨25, _⟩ => ⟨S800000x1, .i32⟩
  | .hbm, ⟨26, _⟩ => ⟨S800000x128, .f32⟩
  | .hbm, ⟨27, _⟩ => ⟨S128, .f32⟩
  | .hbm, ⟨28, _⟩ => ⟨S1x128, .f32⟩
  | .hbm, ⟨29, _⟩ => ⟨S800000x128, .f32⟩
  | .local _ .vmem, ⟨0, _⟩ => ⟨S6400x128, .f32⟩
  | .local _ .vmem, ⟨1, _⟩ => ⟨S6400x128, .f32⟩
  | .local _ .vmem, ⟨2, _⟩ => ⟨S6400x16, .f32⟩
  | .local _ .vmem, ⟨3, _⟩ => ⟨S6400x16, .f32⟩
  | .local _ .vmem, ⟨4, _⟩ => ⟨S6400x128, .f32⟩
  | .local _ .vmem, ⟨5, _⟩ => ⟨S6400x128, .f32⟩
  | .local _ .vmem, ⟨6, _⟩ => ⟨S16x128, .f32⟩
  | .local _ .vmem, ⟨7, _⟩ => ⟨S128x128, .f32⟩
  | .local _ .vmem, ⟨8, _⟩ => ⟨S1x128, .f32⟩
  | .local _ .vmem, ⟨9, _⟩ => ⟨S6400x128, .f32⟩
  | .local _ .vmem, ⟨10, _⟩ => ⟨S6400x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_cst : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_c : Ref sig .tc := ⟨.hbm, 18, rfl⟩
abbrev main_v8 : Ref sig .tc := ⟨.hbm, 19, rfl⟩
abbrev main_v9 : Ref sig .tc := ⟨.hbm, 20, rfl⟩
abbrev main_c_0 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨1, ![125], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S6400x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S6400x16 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S6400x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S16x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S6400x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

class Facts₀ : Prop where
  bcast_S_S50000x128 : S_.BroadcastsInDim S50000x128 (![] : Fin 0 → Fin S50000x128.rank)
  bcast_S800000_S800000x1_0 : S800000.BroadcastsInDim S800000x1 (![0] : Fin 1 → Fin S800000x1.rank)
  slices_S144x128_S128x128_0_0 : S144x128.Slices ![0, 0] S128x128
  slices_S144x128_S16x128_128_0 : S144x128.Slices ![128, 0] S16x128
  bcast_S_S800000 : S_.BroadcastsInDim S800000 (![] : Fin 0 → Fin S800000.rank)
  shapeCasts_S128_S1x128 : S128.ShapeCasts S1x128
  inb_S6400x128_S6400x128_0_0 : ∀ a, (![0, 0] : Fin 2 → Nat) a + S6400x128.size a ≤ S6400x128.size a
  h_S6400x128 : 0 < S6400x128.numel
  shapeCasts_S6400x128_S6400x128 : S6400x128.ShapeCasts S6400x128
  inb_S6400x16_S6400x16_0_0 : ∀ a, (![0, 0] : Fin 2 → Nat) a + S6400x16.size a ≤ S6400x16.size a
  h_S6400x16 : 0 < S6400x16.numel
  bitsLt_bf16_f32 : FTy.bits .bf16 < FTy.bits .f32
  inb_S16x128_S16x128_0_0 : ∀ a, (![0, 0] : Fin 2 → Nat) a + S16x128.size a ≤ S16x128.size a
  h_S16x128 : 0 < S16x128.numel
  shapeCasts_S16x128_S16x128 : S16x128.ShapeCasts S16x128
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S6400x128 : S1x128.Broadcasts S6400x128
  scatter_S50000x128_S800000x1_S800000x128_1_0_0_1_wf : ScatterDims.WF S50000x128 S800000x1 S800000x128 [1] [0] [0] 1
  dot_S50000x128_S128x128_S50000x128_1_0_0_1_n_n_wf : DotDims.WF S50000x128 S128x128 S50000x128 [1] [0] [0] [1] [] []
  gather_S50000x128_S800000x1_S800000x128_1_0_n_n_0_1_1128_wf : GatherDims.WF S50000x128 S800000x1 S800000x128 [1] [0] [] [0] [] 1 ![1, 128]
  dot_S6400x16_S16x128_S6400x128_1_0_0_1_n_n_wf : DotDims.WF S6400x16 S16x128 S6400x128 [1] [0] [0] [1] [] []
  dot_S6400x128_S128x128_S6400x128_1_0_0_1_n_n_wf : DotDims.WF S6400x128 S128x128 S6400x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S6400x128.size a ≤ S800000x128.size a
  hwx0_0 : ∀ i : grid0.Coords, EltTy.bits .f32 = 32 ∨ (Rect.block (s := S800000x128) S6400x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S6400x16.size a ≤ S800000x16.size a
  hwx0_1 : ∀ i : grid0.Coords, EltTy.bits .f32 = 32 ∨ (Rect.block (s := S800000x16) S6400x16.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S6400x128.size a ≤ S800000x128.size a
  hwx0_2 : ∀ i : grid0.Coords, EltTy.bits .f32 = 32 ∨ (Rect.block (s := S800000x128) S6400x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S16x128.size a ≤ S16x128.size a
  hwx0_3 : ∀ i : grid0.Coords, EltTy.bits .f32 = 32 ∨ (Rect.block (s := S16x128) S16x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .f32 = 32 ∨ (Rect.block (s := S128x128) S128x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x128.size a ≤ S1x128.size a
  hwx0_5 : ∀ i : grid0.Coords, EltTy.bits .f32 = 32 ∨ (Rect.block (s := S1x128) S1x128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S6400x128.size a ≤ S800000x128.size a
  hwx0_6 : ∀ i : grid0.Coords, EltTy.bits .f32 = 32 ∨ (Rect.block (s := S800000x128) S6400x128.size (cc0_transform_6 i) (hinb0_6 i)).WholeWords (EltTy.packing .f32)

variable [Facts₀]

def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def dot_S6400x16_S16x128_S6400x128_1_0_0_1_n_n : DotDims S6400x16 S16x128 S6400x128 where
  lhsContracting := [1]
  rhsContracting := [0]
  lhsNonContracting := [0]
  rhsNonContracting := [1]
  lhsBatch := []
  rhsBatch := []
  wf := dot_S6400x16_S16x128_S6400x128_1_0_0_1_n_n_wf
def dot_S6400x128_S128x128_S6400x128_1_0_0_1_n_n : DotDims S6400x128 S128x128 S6400x128 where
  lhsContracting := [1]
  rhsContracting := [0]
  lhsNonContracting := [0]
  rhsNonContracting := [1]
  lhsBatch := []
  rhsBatch := []
  wf := dot_S6400x128_S128x128_S6400x128_1_0_0_1_n_n_wf

abbrev win0_0 : Pipeline.Window sig grid0 :=
  Pipeline.Window.ofSpec (Memref.whole main_v14) S6400x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S6400x16.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S6400x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v4) S16x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg5) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v16) S1x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v17) S6400x128.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S50000x128 : Shape := ⟨2, ![50000, 128]⟩
abbrev S800000x16 : Shape := ⟨2, ![800000, 16]⟩
abbrev S800000x128 : Shape := ⟨2, ![800000, 128]⟩
abbrev S144x128 : Shape := ⟨2, ![144, 128]⟩
abbrev S128 : Shape := ⟨1, ![128]⟩
abbrev S128x128 : Shape := ⟨2, ![128, 128]⟩
abbrev S800000 : Shape := ⟨1, ![800000]⟩
abbrev S_ : Shape := ⟨0, ![]⟩
abbrev S800000x1 : Shape := ⟨2, ![800000, 1]⟩
abbrev S800000x144 : Shape := ⟨2, ![800000, 144]⟩
abbrev S1x128 : Shape := ⟨2, ![1, 128]⟩

abbrev nBuf : Space → Nat
  | .hbm => 42
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S800000x16, .f32⟩
  | .hbm, ⟨2, _⟩ => ⟨S800000x128, .f32⟩
  | .hbm, ⟨3, _⟩ => ⟨S144x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S800000, .i32⟩
  | .hbm, ⟨8, _⟩ => ⟨S800000, .i32⟩
  | .hbm, ⟨9, _⟩ => ⟨S_, .f32⟩
  | .hbm, ⟨10, _⟩ => ⟨S50000x128, .f32⟩
  | .hbm, ⟨11, _⟩ => ⟨S800000x1, .i32⟩
  | .hbm, ⟨12, _⟩ => ⟨S50000x128, .f32⟩
  | .hbm, ⟨13, _⟩ => ⟨S_, .i32⟩
  | .hbm, ⟨14, _⟩ => ⟨S800000, .i32⟩
  | .hbm, ⟨15, _⟩ => ⟨S800000, .i1⟩
  | .hbm, ⟨16, _⟩ => ⟨S_, .i32⟩
  | .hbm, ⟨17, _⟩ => ⟨S800000, .i32⟩
  | .hbm, ⟨18, _⟩ => ⟨S800000, .i32⟩
  | .hbm, ⟨19, _⟩ => ⟨S800000, .i32⟩
  | .hbm, ⟨20, _⟩ => ⟨S800000x1, .i32⟩
  | .hbm, ⟨21, _⟩ => ⟨S800000x128, .f32⟩
  | .hbm, ⟨22, _⟩ => ⟨S800000x128, .f32⟩
  | .hbm, ⟨23, _⟩ => ⟨S_, .i32⟩
  | .hbm, ⟨24, _⟩ => ⟨S800000, .i32⟩
  | .hbm, ⟨25, _⟩ => ⟨S800000, .i1⟩
  | .hbm, ⟨26, _⟩ => ⟨S_, .i32⟩
  | .hbm, ⟨27, _⟩ => ⟨S800000, .i32⟩
  | .hbm, ⟨28, _⟩ => ⟨S800000, .i32⟩
  | .hbm, ⟨29, _⟩ => ⟨S800000, .i32⟩
  | .hbm, ⟨30, _⟩ => ⟨S800000x1, .i32⟩
  | .hbm, ⟨31, _⟩ => ⟨S800000x128, .f32⟩
  | .hbm, ⟨32, _⟩ => ⟨S800000x144, .f32⟩
  | .hbm, ⟨33, _⟩ => ⟨S800000x128, .f32⟩
  | .hbm, ⟨34, _⟩ => ⟨S1x128, .f32⟩
  | .hbm, ⟨35, _⟩ => ⟨S800000x128, .f32⟩
  | .hbm, ⟨36, _⟩ => ⟨S800000x128, .f32⟩
  | .hbm, ⟨37, _⟩ => ⟨S800000x128, .f32⟩
  | .hbm, ⟨38, _⟩ => ⟨S800000x128, .f32⟩
  | .hbm, ⟨39, _⟩ => ⟨S1x128, .f32⟩
  | .hbm, ⟨40, _⟩ => ⟨S800000x128, .f32⟩
  | .hbm, ⟨41, _⟩ => ⟨S800000x128, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_cst : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_c : Ref sig .tc := ⟨.hbm, 13, rfl⟩
abbrev main_v3 : Ref sig .tc := ⟨.hbm, 14, rfl⟩
abbrev main_v4 : Ref sig .tc := ⟨.hbm, 15, rfl⟩
abbrev main_c_0 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_c_1 : Ref sig .tc := ⟨.hbm, 23, rfl⟩
abbrev main_v11 : Ref sig .tc := ⟨.hbm, 24, rfl⟩
abbrev main_v12 : Ref sig .tc := ⟨.hbm, 25, rfl⟩
abbrev main_c_2 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩

abbrev nD : Nat := 1
abbrev τ : Topo := Topo.v7x

variable {F : FTy → Type} [FloatOps F]

class Facts₀ : Prop where
  bcast_S_S50000x128 : S_.BroadcastsInDim S50000x128 (![] : Fin 0 → Fin S50000x128.rank)
  bcast_S800000_S800000x1_0 : S800000.BroadcastsInDim S800000x1 (![0] : Fin 1 → Fin S800000x1.rank)
  bcast_S_S800000 : S_.BroadcastsInDim S800000 (![] : Fin 0 → Fin S800000.rank)
  concatenates_S800000x128_S800000x16_S800000x144_d1 : Shape.Concatenates [S800000x128, S800000x16] S800000x144 1
  bcast_S128_S1x128_1 : S128.BroadcastsInDim S1x128 (![1] : Fin 1 → Fin S1x128.rank)
  bcast_S1x128_S800000x128_0_1 : S1x128.BroadcastsInDim S800000x128 (![0, 1] : Fin 2 → Fin S800000x128.rank)
  scatter_S50000x128_S800000x1_S800000x128_1_0_0_1_wf : ScatterDims.WF S50000x128 S800000x1 S800000x128 [1] [0] [0] 1
  gather_S50000x128_S800000x1_S800000x128_1_0_n_n_0_1_1128_wf : GatherDims.WF S50000x128 S800000x1 S800000x128 [1] [0] [] [0] [] 1 ![1, 128]
  dot_S800000x144_S144x128_S800000x128_1_0_0_1_n_n_wf : DotDims.WF S800000x144 S144x128 S800000x128 [1] [0] [0] [1] [] []
  dot_S800000x128_S128x128_S800000x128_1_0_0_1_n_n_wf : DotDims.WF S800000x128 S128x128 S800000x128 [1] [0] [0] [1] [] []

variable [Facts₀]

def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def dot_S800000x144_S144x128_S800000x128_1_0_0_1_n_n : DotDims S800000x144 S144x128 S800000x128 where
  lhsContracting := [1]
  rhsContracting := [0]
  lhsNonContracting := [0]
  rhsNonContracting := [1]
  lhsBatch := []
  rhsBatch := []
  wf := dot_S800000x144_S144x128_S800000x128_1_0_0_1_n_n_wf
def dot_S800000x128_S128x128_S800000x128_1_0_0_1_n_n : DotDims S800000x128 S128x128 S800000x128 where
  lhsContracting := [1]
  rhsContracting := [0]
  lhsNonContracting := [0]
  rhsNonContracting := [1]
  lhsBatch := []
  rhsBatch := []
  wf := dot_S800000x128_S128x128_S800000x128_1_0_0_1_n_n_wf

class Facts : Prop extends Facts₀ where

variable [Facts]
-- ==== Proof.LibScatterAddRows.lean ====
/-
  A scatter-add along rows acts column by column.

  The scatter here takes an operand of shape [N, D], one start index per edge (an [E, 1] array of signed words) and an
  update array [E, D]: update element (e, q) is added to operand element (start e, q) when the start index, read signed,
  is a row of the operand, and is dropped otherwise. So the updates that land on element (n, q) are the (e, q) with
  start e = n, whatever the width D, and the scatter-add read at (n, q) is the operand's element plus the sum over those
  edges of the update at (e, q). Two update arrays laid side by side along the columns and scattered into a constant
  array therefore give, column by column, the two separate scatters laid side by side.

  Last, the real-valued part: finite sums and products of real numbers are real, a scatter-add of real updates into a
  real array is real, and every element of a concatenation is an element of one of its pieces.
-/
import Idealize.ShloMosaic.Lib.ValueIdx
import Idealize.ShloMosaic.Lib.Pipeline.Value
import Idealize.ShloMosaic.PureOps.Contract
import Idealize.ShloMosaic.PureOps.Ideal.Laws

noncomputable section
open scoped BigOperators
namespace Cert.PrefixA
open Idealize.ShloMosaic Idealize.ShloMosaic.ValueIdx

variable {N E D : Nat}

/-- The dimension numbers of a scatter along rows: operand [N, D], start indices [E, 1], updates [E, D]. -/
abbrev RowScatter (N E D : Nat) : Type :=
  ScatterDims (⟨2, ![N, D]⟩ : Shape) (⟨2, ![E, 1]⟩ : Shape) (⟨2, ![E, D]⟩ : Shape)

/-- The updates' column axis is the window, the operand's row axis is inserted and is the one the start index names, and
    the start indices' second axis holds the index vector. -/
structure IsRow (d : RowScatter N E D) : Prop where
  uw : d.updateWindowDims = [1]
  iw : d.insertedWindowDims = [0]
  sd : d.scatterDimsToOperandDims = [0]
  iv : d.indexVectorDim = 1

/-! ## Where an update lands -/

theorem one_ne_zero2 : (1 : Fin 2) ≠ 0 := by decide
theorem zero_ne_one2 : (0 : Fin 2) ≠ 1 := by decide

/-- The operand's axes other than the row axis: the column axis. -/
theorem kept0 : (⟨2, ![N, D]⟩ : Shape).kept [0] = [1] := rfl

/-- On the row axis the window starts at the start index read at the update's row. -/
theorem start0 (wf) {w : Nat} (idx : IVec (⟨2, ![E, 1]⟩ : Shape) w) (j : (⟨2, ![E, D]⟩ : Shape).Idx) :
    (⟨[1], [0], [0], 1, wf⟩ : RowScatter N E D).start j idx 0 = (idx (ix2 (j 0) 0)).toInt := by
  unfold ScatterDims.start
  rw [dif_pos (List.mem_singleton.2 rfl)]
  congr 2
  funext b
  match b with
  | ⟨0, _⟩ => rfl
  | ⟨1, _⟩ => rfl

/-- On the column axis the window starts at zero. -/
theorem start1 (wf) {w : Nat} (idx : IVec (⟨2, ![E, 1]⟩ : Shape) w) (j : (⟨2, ![E, D]⟩ : Shape).Idx) :
    (⟨[1], [0], [0], 1, wf⟩ : RowScatter N E D).start j idx 1 = 0 := by
  unfold ScatterDims.start
  rw [dif_neg (fun h => absurd (List.mem_singleton.1 h) one_ne_zero2)]

/-- The window has no extent along the row axis. -/
theorem window0 (wf) (j : (⟨2, ![E, D]⟩ : Shape).Idx) :
    (⟨[1], [0], [0], 1, wf⟩ : RowScatter N E D).window j 0 = 0 := by
  unfold ScatterDims.window
  rw [dif_neg (fun h => by rw [ScatterDims.sKept, kept0] at h; exact absurd (List.mem_singleton.1 h) zero_ne_one2)]

/-- Along the column axis the window coordinate is the update's column. -/
theorem window1 (wf) (j : (⟨2, ![E, D]⟩ : Shape).Idx) :
    (⟨[1], [0], [0], 1, wf⟩ : RowScatter N E D).window j 1 = (j 1).val := by
  unfold ScatterDims.window
  rw [dif_pos (by rw [ScatterDims.sKept, kept0]; exact List.mem_singleton.2 rfl)]
  rfl

/-- Which operand element an update lands on: row the signed start index read at the update's row, same column. -/
theorem resultIdx?_row (d : RowScatter N E D) (hd : IsRow d) {w : Nat} (idx : IVec (⟨2, ![E, 1]⟩ : Shape) w)
    (j : (⟨2, ![E, D]⟩ : Shape).Idx) (n : Fin N) (q : Fin D) :
    d.resultIdx? j idx = some (ix2 n q) ↔ ((idx (ix2 (j 0) 0)).toInt = (n.val : Int) ∧ (j 1).val = q.val) := by
  obtain ⟨uw, iw, sd, iv, wf⟩ := d
  obtain ⟨h1, h2, h3, h4⟩ := hd
  dsimp only at h1 h2 h3 h4
  subst h1 h2 h3 h4
  unfold ScatterDims.resultIdx?
  constructor
  · intro h
    split at h
    · rename_i hc
      have e := Option.some.inj h
      have v0 : ((⟨[1], [0], [0], 1, wf⟩ : RowScatter N E D).start j idx 0 + ((⟨[1], [0], [0], 1, wf⟩ : RowScatter N E D).window j 0 : Int)).toNat = n.val := congrArg Fin.val (congrFun e 0)
      have v1 : ((⟨[1], [0], [0], 1, wf⟩ : RowScatter N E D).start j idx 1 + ((⟨[1], [0], [0], 1, wf⟩ : RowScatter N E D).window j 1 : Int)).toNat = q.val := congrArg Fin.val (congrFun e 1)
      have c0 : 0 ≤ (⟨[1], [0], [0], 1, wf⟩ : RowScatter N E D).start j idx 0 + ((⟨[1], [0], [0], 1, wf⟩ : RowScatter N E D).window j 0 : Int) ∧ (⟨[1], [0], [0], 1, wf⟩ : RowScatter N E D).start j idx 0 + ((⟨[1], [0], [0], 1, wf⟩ : RowScatter N E D).window j 0 : Int) < (N : Int) := hc 0
      rw [start0, window0] at v0 c0
      rw [start1, window1] at v1
      constructor <;> omega
    · exact absurd h (by simp)
  · rintro ⟨h0, h1⟩
    have hc : ∀ a : Fin 2, 0 ≤ (⟨[1], [0], [0], 1, wf⟩ : RowScatter N E D).start j idx a + ((⟨[1], [0], [0], 1, wf⟩ : RowScatter N E D).window j a : Int)
        ∧ (⟨[1], [0], [0], 1, wf⟩ : RowScatter N E D).start j idx a + ((⟨[1], [0], [0], 1, wf⟩ : RowScatter N E D).window j a : Int) < ((⟨2, ![N, D]⟩ : Shape).size a : Int) := by
      intro a
      match a with
      | ⟨0, _⟩ =>
        show 0 ≤ (⟨[1], [0], [0], 1, wf⟩ : RowScatter N E D).start j idx 0 + ((⟨[1], [0], [0], 1, wf⟩ : RowScatter N E D).window j 0 : Int) ∧ (⟨[1], [0], [0], 1, wf⟩ : RowScatter N E D).start j idx 0 + ((⟨[1], [0], [0], 1, wf⟩ : RowScatter N E D).window j 0 : Int) < (N : Int)
        rw [start0, window0]; have := n.isLt; omega
      | ⟨1, _⟩ =>
        show 0 ≤ (⟨[1], [0], [0], 1, wf⟩ : RowScatter N E D).start j idx 1 + ((⟨[1], [0], [0], 1, wf⟩ : RowScatter N E D).window j 1 : Int) ∧ (⟨[1], [0], [0], 1, wf⟩ : RowScatter N E D).start j idx 1 + ((⟨[1], [0], [0], 1, wf⟩ : RowScatter N E D).window j 1 : Int) < (D : Int)
        rw [start1, window1]; have := q.isLt; omega
    rw [dif_pos hc]
    congr 1
    funext a
    match a with
    | ⟨0, _⟩ =>
      apply Fin.ext
      show ((⟨[1], [0], [0], 1, wf⟩ : RowScatter N E D).start j idx 0 + ((⟨[1], [0], [0], 1, wf⟩ : RowScatter N E D).window j 0 : Int)).toNat = n.val
      rw [start0, window0]; omega
    | ⟨1, _⟩ =>
      apply Fin.ext
      show ((⟨[1], [0], [0], 1, wf⟩ : RowScatter N E D).start j idx 1 + ((⟨[1], [0], [0], 1, wf⟩ : RowScatter N E D).window j 1 : Int)).toNat = q.val
      rw [start1, window1]; omega

/-- A row scatter-add read at one element: the operand's element plus, over the edges whose start index is the
    element's row, the update at that edge and the element's column. -/
theorem hostScatterAdd_row (d : RowScatter N E D) (hd : IsRow d) {w : Nat} (x : (⟨2, ![N, D]⟩ : Shape).Idx → EReal)
    (idx : IVec (⟨2, ![E, 1]⟩ : Shape) w) (upd : (⟨2, ![E, D]⟩ : Shape).Idx → EReal) (n : Fin N) (q : Fin D) :
    Ideal.hostScatterAdd d x idx upd (ix2 n q)
      = x (ix2 n q) + ∑ e ∈ Finset.univ.filter (fun e : Fin E => (idx (ix2 e 0)).toInt = (n.val : Int)), upd (ix2 e q) := by
  unfold Ideal.hostScatterAdd
  congr 1
  refine Finset.sum_bij' (fun j _ => j 0) (fun e _ => ix2 e q) ?_ ?_ ?_ ?_ ?_
  · intro j hj
    exact Finset.mem_filter.2 ⟨Finset.mem_univ _, ((resultIdx?_row d hd idx j n q).1 (Finset.mem_filter.1 hj).2).1⟩
  · intro e he
    exact Finset.mem_filter.2 ⟨Finset.mem_univ _, (resultIdx?_row d hd idx (ix2 e q) n q).2 ⟨(Finset.mem_filter.1 he).2, rfl⟩⟩
  · intro j hj
    have h1 := ((resultIdx?_row d hd idx j n q).1 (Finset.mem_filter.1 hj).2).2
    funext a
    match a with
    | ⟨0, _⟩ => rfl
    | ⟨1, _⟩ => exact Fin.ext h1.symm
  · intro e he
    rfl
  · intro j hj
    have h1 := ((resultIdx?_row d hd idx j n q).1 (Finset.mem_filter.1 hj).2).2
    congr 1
    funext a
    match a with
    | ⟨0, _⟩ => rfl
    | ⟨1, _⟩ => exact Fin.ext h1

/-- A row scatter-add acts column by column: scattering two update arrays laid side by side into a constant array
    is laying side by side the two scatters into the constant arrays of half the width. -/
theorem scatter_concat {D2 : Nat} (hD : D2 = D + D) (dF : RowScatter N E D2) (dH : RowScatter N E D)
    (hF : IsRow dF) (hH : IsRow dH) {w : Nat} (idx : IVec (⟨2, ![E, 1]⟩ : Shape) w) (c : EReal)
    (z : (⟨2, ![N, D2]⟩ : Shape).Idx → EReal) (z' : (⟨2, ![N, D]⟩ : Shape).Idx → EReal)
    (hz : ∀ i, z i = c) (hz' : ∀ i, z' i = c) (a b : (⟨2, ![E, D]⟩ : Shape).Idx → EReal)
    (hU : Shape.Concatenates [(⟨2, ![E, D]⟩ : Shape), ⟨2, ![E, D]⟩] ⟨2, ![E, D2]⟩ 1)
    (hN : Shape.Concatenates [(⟨2, ![N, D]⟩ : Shape), ⟨2, ![N, D]⟩] ⟨2, ![N, D2]⟩ 1) :
    Ideal.hostScatterAdd dF z idx (concatenate ⟨2, ![E, D2]⟩ 1 [⟨⟨2, ![E, D]⟩, a⟩, ⟨⟨2, ![E, D]⟩, b⟩] hU)
      = concatenate ⟨2, ![N, D2]⟩ 1
          [⟨⟨2, ![N, D]⟩, Ideal.hostScatterAdd dH z' idx a⟩, ⟨⟨2, ![N, D]⟩, Ideal.hostScatterAdd dH z' idx b⟩] hN := by
  funext i
  obtain ⟨n, p, rfl⟩ : ∃ (n : Fin N) (p : Fin D2), i = ix2 n p := ⟨i 0, i 1, eq_ix2 i⟩
  rw [hostScatterAdd_row dF hF]
  by_cases hp : p.val < D
  · rw [concatenate_pair_apply_left 1 _ _ hN (ix2 n p) rfl (ix2 n ⟨p.val, hp⟩)
      (by intro b; match b with | ⟨0, _⟩ => rfl | ⟨1, _⟩ => rfl)]
    rw [hostScatterAdd_row dH hH, hz, hz']
    congr 1
    refine Finset.sum_congr rfl fun e _ => ?_
    exact concatenate_pair_apply_left 1 _ _ hU (ix2 e p) rfl (ix2 e ⟨p.val, hp⟩)
      (by intro b; match b with | ⟨0, _⟩ => rfl | ⟨1, _⟩ => rfl)
  · have hp2 : p.val - D < D := by have := p.isLt; omega
    rw [concatenate_pair_apply_right 1 _ _ hN (ix2 n p) rfl rfl (ix2 n ⟨p.val - D, hp2⟩)
      (by intro b hb; match b, hb with | ⟨0, _⟩, _ => rfl | ⟨1, _⟩, hb => exact absurd rfl hb)
      (by show (p.val - D) + D = p.val; omega)]
    rw [hostScatterAdd_row dH hH, hz, hz']
    congr 1
    refine Finset.sum_congr rfl fun e _ => ?_
    exact concatenate_pair_apply_right 1 _ _ hU (ix2 e p) rfl rfl (ix2 e ⟨p.val - D, hp2⟩)
      (by intro b hb; match b, hb with | ⟨0, _⟩, _ => rfl | ⟨1, _⟩, hb => exact absurd rfl hb)
      (by show (p.val - D) + D = p.val; omega)

/-! ## Real values -/

/-- An extended real that is a real number. -/
def IsReal (v : EReal) : Prop := ∃ r : ℝ, v = (r : EReal)

theorem IsReal.mul {a b : EReal} : IsReal a → IsReal b → IsReal (a * b)
  | ⟨r, hr⟩, ⟨s, hs⟩ => ⟨r * s, by rw [hr, hs, EReal.coe_mul]⟩

theorem IsReal.add {a b : EReal} : IsReal a → IsReal b → IsReal (a + b)
  | ⟨r, hr⟩, ⟨s, hs⟩ => ⟨r + s, by rw [hr, hs, EReal.coe_add]⟩

/-- A finite sum of real numbers is a real number. -/
theorem IsReal.sum {ι : Type} (s : Finset ι) (f : ι → EReal) (h : ∀ i ∈ s, IsReal (f i)) : IsReal (∑ i ∈ s, f i) := by
  classical
  induction s using Finset.induction_on with
  | empty => exact ⟨0, by simp⟩
  | insert a s ha ih =>
    rw [Finset.sum_insert ha]
    exact (h a (Finset.mem_insert_self a s)).add (ih fun i hi => h i (Finset.mem_insert_of_mem hi))

/-- A scatter-add of real updates into a real array is real: each element is the operand's plus a finite sum of updates. -/
theorem isReal_hostScatterAdd {s si su : Shape} (d : ScatterDims s si su) {w : Nat} (x : s.Idx → EReal) (idx : IVec si w)
    (upd : su.Idx → EReal) (hx : ∀ i, IsReal (x i)) (hu : ∀ j, IsReal (upd j)) (i : s.Idx) :
    IsReal (Ideal.hostScatterAdd d x idx upd i) :=
  (hx i).add (IsReal.sum _ _ fun j _ => hu j)

/-- The zero of the 32-bit format is the real number zero. -/
theorem isReal_ofBits_zero : IsReal (Ideal.ofBits .f32 0x00000000#32) := ⟨0, by rw [Ideal.ofBits_zero_f32]; rfl⟩

/-- Every element of a concatenation is an element of one of its pieces. -/
theorem concatenate_forall {α : Type} (P : α → Prop) (t : Shape) (a : Fin t.rank) (xs : List ((s : Shape) × (s.Idx → α)))
    (h : Shape.Concatenates (xs.map (·.1)) t a) (hP : ∀ p ∈ xs, ∀ i, P (p.2 i)) (j : t.Idx) :
    P (concatenate t a xs h j) := by
  unfold concatenate
  exact hP _ (List.getElem_mem _) _

end Cert.PrefixA
-- ==== Proof.Finite.lean ====
/-
  What the precondition says: every entry of every floating-point argument is a real number.

  The precondition is a conjunction, one conjunct per floating-point argument, each saying that all entries x of the
  argument satisfy |x| < +∞. On the extended reals |x| is max x (−x), which is +∞ exactly at the two infinities, so
  |x| < +∞ says that x is a real number. The conjunction is a chain of one-bit "and"s over seven "all" reductions.
-/
import proofs.«152897_j7876970021288_2_alg».proof.Pre_finite_inputs
import proofs.«152897_j7876970021288_2_alg».proof.Proof.LibScatterAddRows
import Idealize.ShloMosaic.Lib.ReduceAll
import Idealize.ShloMosaic.Lib.ValueIdx
import Idealize.ShloMosaic.PureOps.Ideal

noncomputable section
namespace Cert.FiniteInputs
open Idealize.ShloMosaic Idealize.ShloMosaic.ValueIdx Cert.PrefixA Cert.Pre_finite_inputs

instance : Subsingleton S_.Idx := ⟨fun a b => funext fun d => d.elim0⟩

/-- The word 0x7F800000 of the 32-bit format is +∞. -/
theorem ofBits_inf : Ideal.ofBits .f32 0x7F800000#32 = (⊤ : EReal) := by simp [Ideal.ofBits, Ideal.ieee]

/-- An extended real whose absolute value is below +∞ is a real number. -/
theorem isReal_of_abs_lt_top (x : EReal) (h : Ideal.cmp .olt (max x (-x)) (⊤ : EReal) = 1#1) : IsReal x := by
  induction x using EReal.rec with
  | bot => simp [Ideal.cmp] at h
  | coe r => exact ⟨r, rfl⟩
  | top => simp [Ideal.cmp] at h

variable [Facts]

/-- One conjunct: an "all" over the comparison |x| < +∞ that came out true makes every entry a real number. -/
theorem all_real {s : Shape} {axes : List (Fin s.rank)} (x : FVec Ideal s .f32) (bc : S_.BroadcastsInDim s (![] : Fin 0 → Fin s.rank))
    (hr : s.ReducesTo axes S_) (hu : 0 < S_.numel)
    (h : Host.reduce IntOp.andi (cmpf .olt (Host.absf x) (broadcastInDim s ![] bc (constant (F := Ideal) S_ .f32 0x7F800000#32)))
      (constantI S_ 1 1#1) hr hu ix0 = 1#1) (i : s.Idx) : IsReal (x i) := by
  have e := Host.reduce_andi_all _ _ hr hu ix0 h i
  have e' : Ideal.cmp .olt (max (x i) (-(x i))) (Ideal.ofBits .f32 0x7F800000#32) = 1#1 := e
  rw [ofBits_inf] at e'
  exact isReal_of_abs_lt_top _ e'

/-- The precondition makes every entry of the seven floating-point arguments a real number. -/
theorem inputs_real (a0 : FVec Ideal S50000x128 .f32) (a1 : FVec Ideal S800000x16 .f32) (a2 : FVec Ideal S800000x128 .f32)
    (a3 : FVec Ideal S144x128 .f32) (a4 : FVec Ideal S128 .f32) (a5 : FVec Ideal S128x128 .f32) (a6 : FVec Ideal S128 .f32)
    (a7 a8 : IVec S800000 32) (h : fn (F := Ideal) a0 a1 a2 a3 a4 a5 a6 a7 a8 = fun _ => 1#1) :
    (∀ i, IsReal (a0 i)) ∧ (∀ i, IsReal (a1 i)) ∧ (∀ i, IsReal (a2 i)) ∧ (∀ i, IsReal (a3 i)) ∧ (∀ i, IsReal (a4 i))
      ∧ (∀ i, IsReal (a5 i)) ∧ (∀ i, IsReal (a6 i)) := by
  have h0 := congrFun h ix0
  dsimp only [fn, fn_part1] at h0
  obtain ⟨h5, r6⟩ := IntOp.andi_eq_one.1 h0
  obtain ⟨h4, r5⟩ := IntOp.andi_eq_one.1 h5
  obtain ⟨h3, r4⟩ := IntOp.andi_eq_one.1 h4
  obtain ⟨h2, r3⟩ := IntOp.andi_eq_one.1 h3
  obtain ⟨h1, r2⟩ := IntOp.andi_eq_one.1 h2
  obtain ⟨r0, r1⟩ := IntOp.andi_eq_one.1 h1
  exact ⟨all_real a0 _ _ _ r0, all_real a1 _ _ _ r1, all_real a2 _ _ _ r2, all_real a3 _ _ _ r3, all_real a4 _ _ _ r4,
    all_real a5 _ _ _ r5, all_real a6 _ _ _ r6⟩

end Cert.FiniteInputs
-- ==== Proof.LibPlainDot.lean ====
/-
  A plain matrix product read at an entry.

  For a contraction of an [A, K] array with a [K, B] array over the shared axis — no batch axes, the rows of the left
  operand and the columns of the right operand kept — the (p, q) entry is the sum over k < K of left (p, k) times
  right (k, q). This holds for the product taken on the host and, into a zero accumulator, for the product taken in the
  kernel; both are stated here as sums over `Fin K`.
-/
import Idealize.ShloMosaic.Lib.ValueIdx
import Idealize.ShloMosaic.PureOps.Ideal.Laws

noncomputable section
open scoped BigOperators
namespace Cert.PlainDot
open Idealize.ShloMosaic Idealize.ShloMosaic.ValueIdx

variable {A K B : Nat}

/-- The dimension numbers of an [A, K] by [K, B] product. -/
abbrev Dot2 (A K B : Nat) : Type :=
  DotDims (⟨2, ![A, K]⟩ : Shape) (⟨2, ![K, B]⟩ : Shape) (⟨2, ![A, B]⟩ : Shape)

/-- The left operand's second axis meets the right operand's first; the other two axes are kept; nothing is batched. -/
structure IsPlain (d : Dot2 A K B) : Prop where
  lc : d.lhsContracting = [1]
  rc : d.rhsContracting = [0]
  ln : d.lhsNonContracting = [0]
  rn : d.rhsNonContracting = [1]
  lb : d.lhsBatch = []
  rb : d.rhsBatch = []

section Coordinates
variable (wf : DotDims.WF (⟨2, ![A, K]⟩ : Shape) (⟨2, ![K, B]⟩ : Shape) (⟨2, ![A, B]⟩ : Shape) [1] [0] [0] [1] [] [])

/-- The left operand's row is the entry's row. -/
theorem lhs0 (i : (⟨2, ![A, B]⟩ : Shape).Idx) (q : (⟨[1], [0], [0], [1], [], [], wf⟩ : Dot2 A K B).contr.Idx) :
    ((⟨[1], [0], [0], [1], [], [], wf⟩ : Dot2 A K B).lhsIdx i q 0).val = (i 0).val := by
  unfold DotDims.lhsIdx
  rw [dif_neg (show ¬(0 : Fin 2) ∈ (⟨[1], [0], [0], [1], [], [], wf⟩ : Dot2 A K B).lhsBatch from List.not_mem_nil),
    dif_pos (show (0 : Fin 2) ∈ (⟨[1], [0], [0], [1], [], [], wf⟩ : Dot2 A K B).lhsNonContracting from List.mem_singleton.mpr rfl)]
  rfl

/-- The left operand's column is the contracted index. -/
theorem lhs1 (i : (⟨2, ![A, B]⟩ : Shape).Idx) (q : (⟨[1], [0], [0], [1], [], [], wf⟩ : Dot2 A K B).contr.Idx) :
    ((⟨[1], [0], [0], [1], [], [], wf⟩ : Dot2 A K B).lhsIdx i q 1).val = (q ⟨0, Nat.one_pos⟩).val :=
  (⟨[1], [0], [0], [1], [], [], wf⟩ : Dot2 A K B).lhsIdx_val_of_single rfl i q

/-- The right operand's row is the contracted index. -/
theorem rhs0 (i : (⟨2, ![A, B]⟩ : Shape).Idx) (q : (⟨[1], [0], [0], [1], [], [], wf⟩ : Dot2 A K B).contr.Idx) :
    ((⟨[1], [0], [0], [1], [], [], wf⟩ : Dot2 A K B).rhsIdx i q 0).val = (q ⟨0, Nat.one_pos⟩).val :=
  (⟨[1], [0], [0], [1], [], [], wf⟩ : Dot2 A K B).rhsIdx_val_of_single rfl i q

/-- The right operand's column is the entry's column. -/
theorem rhs1 (i : (⟨2, ![A, B]⟩ : Shape).Idx) (q : (⟨[1], [0], [0], [1], [], [], wf⟩ : Dot2 A K B).contr.Idx) :
    ((⟨[1], [0], [0], [1], [], [], wf⟩ : Dot2 A K B).rhsIdx i q 1).val = (i 1).val := by
  unfold DotDims.rhsIdx
  rw [dif_neg (show ¬(1 : Fin 2) ∈ (⟨[1], [0], [0], [1], [], [], wf⟩ : Dot2 A K B).rhsBatch from List.not_mem_nil),
    dif_pos (show (1 : Fin 2) ∈ (⟨[1], [0], [0], [1], [], [], wf⟩ : Dot2 A K B).rhsNonContracting from List.mem_singleton.mpr rfl)]
  rfl

end Coordinates

/-- The sum over the contracted index, re-indexed by `Fin K`, with the operand entries named by their coordinates. -/
theorem sum_contr (d : Dot2 A K B) (hd : IsPlain d) (l : (⟨2, ![A, K]⟩ : Shape).Idx → EReal)
    (r : (⟨2, ![K, B]⟩ : Shape).Idx → EReal) (i : (⟨2, ![A, B]⟩ : Shape).Idx) :
    ∑ q : d.contr.Idx, l (d.lhsIdx i q) * r (d.rhsIdx i q) = ∑ k : Fin K, l (ix2 (i 0) k) * r (ix2 k (i 1)) := by
  obtain ⟨lc, rc, ln, rn, lb, rb, wf⟩ := d
  obtain ⟨h1, h2, h3, h4, h5, h6⟩ := hd
  dsimp only at h1 h2 h3 h4 h5 h6
  subst h1 h2 h3 h4 h5 h6
  rw [← Equiv.sum_comp (contrEquiv1 (⟨[1], [0], [0], [1], [], [], wf⟩ : Dot2 A K B) K rfl rfl).symm]
  refine Finset.sum_congr rfl fun k _ => ?_
  have hk := contrEquiv1_symm_val (⟨[1], [0], [0], [1], [], [], wf⟩ : Dot2 A K B) K rfl rfl k
  have el : (⟨[1], [0], [0], [1], [], [], wf⟩ : Dot2 A K B).lhsIdx i
      ((contrEquiv1 (⟨[1], [0], [0], [1], [], [], wf⟩ : Dot2 A K B) K rfl rfl).symm k) = ix2 (i 0) k :=
    funext fun a => Fin.ext (by
      match a with
      | ⟨0, _⟩ => exact lhs0 wf _ _
      | ⟨1, _⟩ => exact (lhs1 wf _ _).trans hk)
  have er : (⟨[1], [0], [0], [1], [], [], wf⟩ : Dot2 A K B).rhsIdx i
      ((contrEquiv1 (⟨[1], [0], [0], [1], [], [], wf⟩ : Dot2 A K B) K rfl rfl).symm k) = ix2 k (i 1) :=
    funext fun a => Fin.ext (by
      match a with
      | ⟨0, _⟩ => exact (rhs0 wf _ _).trans hk
      | ⟨1, _⟩ => exact rhs1 wf _ _)
  exact congrArg₂ (· * ·) (congrArg l el) (congrArg r er)

/-- The host's product at an entry. -/
theorem dotGeneral_plain {φ₁ φ₂ : FTy} (d : Dot2 A K B) (hd : IsPlain d) (prec : Option ContractPrecision) (sched : HostSchedule)
    (l : FVec Ideal (⟨2, ![A, K]⟩ : Shape) φ₁) (r : FVec Ideal (⟨2, ![K, B]⟩ : Shape) φ₂) (i : (⟨2, ![A, B]⟩ : Shape).Idx) :
    FloatOps.dotGeneral d prec sched l r i = ∑ k : Fin K, l (ix2 (i 0) k) * r (ix2 k (i 1)) := by
  rw [Ideal.dotGeneral_apply]
  exact sum_contr d hd l r i

/-- The kernel's product into a zero accumulator at an entry. -/
theorem matmul_zero_plain {φ₁ φ₂ : FTy} (d : Dot2 A K B) (hd : IsPlain d) (prec : Option ContractPrecision)
    (l : FVec Ideal (⟨2, ![A, K]⟩ : Shape) φ₁) (r : FVec Ideal (⟨2, ![K, B]⟩ : Shape) φ₂) (i : (⟨2, ![A, B]⟩ : Shape).Idx) :
    FloatOps.matmul d prec l r (constant (⟨2, ![A, B]⟩ : Shape) .f32 0x00000000#32) i
      = ∑ k : Fin K, l (ix2 (i 0) k) * r (ix2 k (i 1)) := by
  rw [Ideal.matmul_constant_zero_apply]
  exact sum_contr d hd l r i

end Cert.PlainDot
-- ==== Proof.KernelPayload.lean ====
/-
  What the kernel body computes on one block, read at an entry.

  At one grid point the body holds a block of 6400 gathered table rows t, the matching 6400 rows of edge features x
  (16 wide) and of messages m (128 wide), the lower 16 rows w of the input weights, the hidden weights h and the summed
  bias row β. Changes of floating-point format are the identity on the extended reals and the two products start from
  a zero accumulator, so entry (p, q) of what it stores is

      ((t p q + Σ_j x p j · w j q) − Σ_k m p k · h k q) + β 0 q.
-/
import proofs.«152897_j7876970021288_2_alg».proof.Proof.Gen.KernelIdeal.Skeleton
import proofs.«152897_j7876970021288_2_alg».proof.Proof.LibPlainDot
import Idealize.ShloMosaic.Lib.Pipeline.Value
import Idealize.ShloMosaic.Lib.ValueIdx

noncomputable section
open scoped BigOperators
namespace Cert.KernelIdeal.Payload
open Cert.KernelIdeal Cert.KernelIdeal.Gen Idealize.ShloMosaic Idealize.ShloMosaic.ValueIdx

variable [Facts]

/-- The edge-feature product of the body is a plain [6400, 16] by [16, 128] product. -/
theorem plain_edge : Cert.PlainDot.IsPlain (A := 6400) (K := 16) (B := 128) dot_S6400x16_S16x128_S6400x128_1_0_0_1_n_n :=
  ⟨rfl, rfl, rfl, rfl, rfl, rfl⟩

/-- The message product of the body is a plain [6400, 128] by [128, 128] product. -/
theorem plain_msg : Cert.PlainDot.IsPlain (A := 6400) (K := 128) (B := 128) dot_S6400x128_S128x128_S6400x128_1_0_0_1_n_n :=
  ⟨rfl, rfl, rfl, rfl, rfl, rfl⟩

/-- The bias row spread over the block's rows, read at (p, q): the row's entry q. -/
theorem bias_apply (x5 : S1x128.Idx → EReal) (p : Fin 6400) (q : Fin 128) :
    broadcastTo S6400x128 x5 broadcasts_S1x128_S6400x128 (ix2 p q) = x5 (ix2 0 q) :=
  broadcastTo_apply x5 broadcasts_S1x128_S6400x128 (ix2 p q) (ix2 0 q) (fun a => by
    match a with
    | ⟨0, _⟩ => show 0 = if (1 : Nat) = 1 then 0 else _; rw [if_pos rfl]
    | ⟨1, _⟩ => show q.val = if (128 : Nat) = 1 then 0 else q.val; rw [if_neg (by decide)])

/-- The body's stored value at entry (p, q) of the block. -/
theorem pay_apply (x0 : Vec Ideal S6400x128 .f32) (x1 : Vec Ideal S6400x16 .f32) (x2 : Vec Ideal S6400x128 .f32)
    (x3 : Vec Ideal S16x128 .f32) (x4 : Vec Ideal S128x128 .f32) (x5 : Vec Ideal S1x128 .f32) (p : Fin 6400) (q : Fin 128) :
    k0_pay1 (F := Ideal) x0 x1 x2 x3 x4 x5 (ix2 p q)
      = ((x0 (ix2 p q) + ∑ j : Fin 16, x1 (ix2 p j) * x3 (ix2 j q)) - ∑ k : Fin 128, x2 (ix2 p k) * x4 (ix2 k q))
        + x5 (ix2 0 q) := by
  have e1 := Cert.PlainDot.matmul_zero_plain (A := 6400) (K := 16) (B := 128) dot_S6400x16_S16x128_S6400x128_1_0_0_1_n_n
    plain_edge none (truncf .bf16 x1 bitsLt_bf16_f32 : FVec Ideal S6400x16 .bf16)
    (truncf .bf16 x3 bitsLt_bf16_f32 : FVec Ideal S16x128 .bf16) (ix2 p q)
  have e2 := Cert.PlainDot.matmul_zero_plain (A := 6400) (K := 128) (B := 128) dot_S6400x128_S128x128_S6400x128_1_0_0_1_n_n
    plain_msg none (truncf .bf16 x2 bitsLt_bf16_f32 : FVec Ideal S6400x128 .bf16)
    (truncf .bf16 x4 bitsLt_bf16_f32 : FVec Ideal S128x128 .bf16) (ix2 p q)
  have e3 := bias_apply x5 p q
  unfold k0_pay1
  simp only [shapeCast_self]
  exact congrArg₂ (· + ·) (congrArg₂ (· - ·) (congrArg (x0 (ix2 p q) + ·) e1) e2) e3

/-- The same with every block entry it reads named: if the blocks hold T at (p, q), the rows X, M at p, the columns W, H
    at q and β at (0, q), the stored value at (p, q) is ((T + Σ X·W) − Σ M·H) + β. -/
theorem point_eq (x0 : Vec Ideal S6400x128 .f32) (x1 : Vec Ideal S6400x16 .f32) (x2 : Vec Ideal S6400x128 .f32)
    (x3 : Vec Ideal S16x128 .f32) (x4 : Vec Ideal S128x128 .f32) (x5 : Vec Ideal S1x128 .f32) (p : Fin 6400) (q : Fin 128)
    (T : EReal) (X W : Fin 16 → EReal) (M H : Fin 128 → EReal) (β : EReal)
    (h0 : x0 (ix2 p q) = T) (h1 : ∀ j, x1 (ix2 p j) = X j) (h3 : ∀ j, x3 (ix2 j q) = W j)
    (h2 : ∀ k, x2 (ix2 p k) = M k) (h4 : ∀ k, x4 (ix2 k q) = H k) (h5 : x5 (ix2 0 q) = β) :
    k0_pay1 (F := Ideal) x0 x1 x2 x3 x4 x5 (ix2 p q) = ((T + ∑ j : Fin 16, X j * W j) - ∑ k : Fin 128, M k * H k) + β := by
  rw [pay_apply, h0, h5]
  simp only [h1, h2, h3, h4]

end Cert.KernelIdeal.Payload
-- ==== Proof.LibGatherRows.lean ====
/-
  A gather of whole rows.

  The gather here takes an operand of shape [N, D] and one start index per result row (an [E, 1] array of signed words)
  and returns an [E, D] array: result element (e, q) is operand element (r, q), where r is the start index of row e read
  as a signed integer and clamped into the rows 0 .. N − 1 of the operand. So the row that is read depends only on the
  start indices and on e — not on the column q and not on the operand — and the column passes through unchanged.
  Two arrays gathered at the same start indices are therefore read at the same rows.
-/
import Idealize.ShloMosaic.Lib.ValueIdx
import Idealize.ShloMosaic.PureOps.ShapeOps

noncomputable section
namespace Cert.GatherRows
open Idealize.ShloMosaic Idealize.ShloMosaic.ValueIdx

variable {α : Type} {N E D : Nat}

/-- The dimension numbers of a gather of rows: operand [N, D], start indices [E, 1], result [E, D]. -/
abbrev RowGather (N E D : Nat) : Type :=
  GatherDims (⟨2, ![N, D]⟩ : Shape) (⟨2, ![E, 1]⟩ : Shape) (⟨2, ![E, D]⟩ : Shape)

/-- The result's column axis is the offset axis, the operand's row axis is collapsed and is the one the start index
    names, nothing is batched, the start indices' second axis holds the index vector, and a slice is one whole row. -/
structure IsRow (d : RowGather N E D) : Prop where
  od : d.offsetDims = [1]
  cs : d.collapsedSliceDims = [0]
  ob : d.operandBatchingDims = []
  sb : d.startIndicesBatchingDims = []
  sm : d.startIndexMap = [0]
  iv : d.indexVectorDim = 1
  ss : d.sliceSizes = ![1, D]

/-- The operand row that result row `e` reads: its start index read signed, clamped into `0 .. N − 1`. -/
def row {w : Nat} (hN : 0 < N) (idx : IVec (⟨2, ![E, 1]⟩ : Shape) w) (e : Fin E) : Fin N :=
  ⟨min (idx (ix2 e 0)).toInt.toNat (N - 1), by omega⟩

theorem one_ne_zero2 : (1 : Fin 2) ≠ 0 := by decide
theorem zero_ne_one2 : (0 : Fin 2) ≠ 1 := by decide

/-- A gather of rows read at (e, q): the operand at (row e, q). -/
theorem gather_row (d : RowGather N E D) (hd : IsRow d) (hN : 0 < N) {w : Nat} (x : (⟨2, ![N, D]⟩ : Shape).Idx → α)
    (idx : IVec (⟨2, ![E, 1]⟩ : Shape) w) (e : Fin E) (q : Fin D) :
    Host.gather d x idx (ix2 e q) = x (ix2 (row hN idx e) q) := by
  obtain ⟨od, cs, ob, sb, sm, iv, ss, wf⟩ := d
  obtain ⟨h1, h2, h3, h4, h5, h6, h7⟩ := hd
  dsimp only at h1 h2 h3 h4 h5 h6 h7
  subst h1 h2 h3 h4 h5 h6 h7
  unfold Host.gather
  congr 1
  funext a
  refine Fin.ext ?_
  match a with
  | ⟨0, _⟩ =>
    show (⟨[1], [0], [], [], [0], 1, ![1, D], wf⟩ : RowGather N E D).start (ix2 e q) idx 0
        + (⟨[1], [0], [], [], [0], 1, ![1, D], wf⟩ : RowGather N E D).batchCoord (ix2 e q) 0
        + (⟨[1], [0], [], [], [0], 1, ![1, D], wf⟩ : RowGather N E D).offCoord (ix2 e q) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ [(0 : Fin 2)] from List.mem_singleton.mpr rfl)]
    have hsi : (⟨[1], [0], [], [], [0], 1, ![1, D], wf⟩ : RowGather N E D).siIdx (ix2 e q)
        ⟨List.idxOf (0 : Fin 2) [(0 : Fin 2)], List.idxOf_lt_length_iff.2 (List.mem_singleton.mpr rfl)⟩ = ix2 e 0 := by
      funext b; refine Fin.ext ?_
      match b with
      | ⟨0, _⟩ => rfl
      | ⟨1, _⟩ => rfl
    rw [hsi]
    rfl
  | ⟨1, _⟩ =>
    show (⟨[1], [0], [], [], [0], 1, ![1, D], wf⟩ : RowGather N E D).start (ix2 e q) idx 1
        + (⟨[1], [0], [], [], [0], 1, ![1, D], wf⟩ : RowGather N E D).batchCoord (ix2 e q) 1
        + (⟨[1], [0], [], [], [0], 1, ![1, D], wf⟩ : RowGather N E D).offCoord (ix2 e q) 1 = q.val
    rw [GatherDims.batchCoord_eq_zero _ _ _ List.not_mem_nil]
    unfold GatherDims.start
    rw [dif_neg (fun h => absurd (List.mem_singleton.1 h) one_ne_zero2)]
    unfold GatherDims.offCoord
    rw [dif_pos ((GatherDims.mem_sKept _ _).2
      ⟨fun h => absurd (List.mem_singleton.1 h) one_ne_zero2, List.not_mem_nil⟩)]
    simp only [Nat.zero_add]
    rfl

end Cert.GatherRows
-- ==== Proof.Spec.lean ====
/-
  The edge update, as one function of the argument arrays.

  For edge e with source row s = row e, and output column q, the result is

      ((Σ_k nf s k · win k q + Σ_k ns s k · whid k q) + Σ_j ef e j · win (128 + j) q) − Σ_k msg e k · whid k q
        + (bin q + bhid q),

  where nf are the node features, ns the per-node sums of incoming messages, ef the edge features, msg the messages,
  win the input weights (its first 128 rows meet the node features, its last 16 the edge features), whid the hidden
  weights and bin, bhid the biases. The node-side part (the first bracket) is a table indexed by the node, read at s.
-/
import Idealize.ShloMosaic.Lib.ValueIdx
import Idealize.ShloMosaic.PureOps.Ideal

noncomputable section
open scoped BigOperators
namespace Cert.EdgeSpec
open Idealize.ShloMosaic Idealize.ShloMosaic.ValueIdx

/-- Row k < 128 of the input weights. -/
abbrev nodeRow (k : Fin 128) : Fin 144 := ⟨k.val, by omega⟩
/-- Row 128 + j of the input weights, j < 16. -/
abbrev edgeRow (j : Fin 16) : Fin 144 := ⟨128 + j.val, by omega⟩

/-- The node-side table: node n, column q. -/
def table (nf ns : (⟨2, ![50000, 128]⟩ : Shape).Idx → EReal) (win : (⟨2, ![144, 128]⟩ : Shape).Idx → EReal)
    (whid : (⟨2, ![128, 128]⟩ : Shape).Idx → EReal) (n : Fin 50000) (q : Fin 128) : EReal :=
  ∑ k : Fin 128, nf (ix2 n k) * win (ix2 (nodeRow k) q) + ∑ k : Fin 128, ns (ix2 n k) * whid (ix2 k q)

/-- The edge update at edge e, column q. -/
def edgeOut (nf ns : (⟨2, ![50000, 128]⟩ : Shape).Idx → EReal) (ef : (⟨2, ![800000, 16]⟩ : Shape).Idx → EReal)
    (msg : (⟨2, ![800000, 128]⟩ : Shape).Idx → EReal) (win : (⟨2, ![144, 128]⟩ : Shape).Idx → EReal)
    (bin : (⟨1, ![128]⟩ : Shape).Idx → EReal) (whid : (⟨2, ![128, 128]⟩ : Shape).Idx → EReal)
    (bhid : (⟨1, ![128]⟩ : Shape).Idx → EReal) (row : Fin 800000 → Fin 50000) (e : Fin 800000) (q : Fin 128) : EReal :=
  ((table nf ns win whid (row e) q + ∑ j : Fin 16, ef (ix2 e j) * win (ix2 (edgeRow j) q))
      - ∑ k : Fin 128, msg (ix2 e k) * whid (ix2 k q))
    + (bin (ix1 q) + bhid (ix1 q))

/-- The whole result array. -/
def edgeArr (nf ns : (⟨2, ![50000, 128]⟩ : Shape).Idx → EReal) (ef : (⟨2, ![800000, 16]⟩ : Shape).Idx → EReal)
    (msg : (⟨2, ![800000, 128]⟩ : Shape).Idx → EReal) (win : (⟨2, ![144, 128]⟩ : Shape).Idx → EReal)
    (bin : (⟨1, ![128]⟩ : Shape).Idx → EReal) (whid : (⟨2, ![128, 128]⟩ : Shape).Idx → EReal)
    (bhid : (⟨1, ![128]⟩ : Shape).Idx → EReal) (row : Fin 800000 → Fin 50000) :
    (⟨2, ![800000, 128]⟩ : Shape).Idx → EReal :=
  fun i => edgeOut nf ns ef msg win bin whid bhid row (i 0) (i 1)

end Cert.EdgeSpec
-- ==== Proof.KernelHost.lean ====
/-
  What the kernel program's host operations leave in the three arrays the region stages that are not arguments.

  Before the region the program scatter-adds the messages into per-node sums, multiplies the node features by the upper
  128 rows of the input weights and the node sums by the hidden weights, adds the two into a table with one row per
  node, and gathers that table's rows at the (wrapped) source indices; it also slices off the lower 16 rows of the
  input weights, and adds the two biases into one row. Read at an entry:
    the gathered table at (e, q) is the table at (row e, q), row e the clamped source index of edge e;
    the weight slice at (j, q) is the input weights at (128 + j, q);
    the bias row at (0, q) is the sum of the two biases at q.
-/
import proofs.«152897_j7876970021288_2_alg».proof.Proof.Gen.KernelIdeal.Frame
import proofs.«152897_j7876970021288_2_alg».proof.Proof.LibGatherRows
import proofs.«152897_j7876970021288_2_alg».proof.Proof.LibPlainDot
import proofs.«152897_j7876970021288_2_alg».proof.Proof.Spec
import Idealize.ShloMosaic.Lib.StableHlo.Run
import Idealize.ShloMosaic.Lib.Pipeline.Value
import Idealize.ShloMosaic.Lib.ValueIdx

noncomputable section
open scoped BigOperators
namespace Cert.KernelIdeal.HostSide
open Cert.KernelIdeal Cert.KernelIdeal.Gen Idealize.ShloMosaic Idealize.ShloMosaic.TcCoe Idealize.SL.Sem
open Idealize.ShloMosaic.ValueIdx Idealize.ShloMosaic.StableHlo

variable [Facts]
variable (m : (ℓ : Loc nD τ sig) → Buf (Elt Ideal) ℓ)

/-- The argument arrays on core `c`, as launched: node features, edge features, messages, input weights, input
    bias, hidden weights, hidden bias, source indices, destination indices. -/
abbrev nf (c : Dev nD) : FVec Ideal S50000x128 .f32 := m ((c : Thread nD τ).loc main_arg0)
abbrev ef (c : Dev nD) : FVec Ideal S800000x16 .f32 := m ((c : Thread nD τ).loc main_arg1)
abbrev msg (c : Dev nD) : FVec Ideal S800000x128 .f32 := m ((c : Thread nD τ).loc main_arg2)
abbrev win (c : Dev nD) : FVec Ideal S144x128 .f32 := m ((c : Thread nD τ).loc main_arg3)
abbrev bin (c : Dev nD) : FVec Ideal S128 .f32 := m ((c : Thread nD τ).loc main_arg4)
abbrev whid (c : Dev nD) : FVec Ideal S128x128 .f32 := m ((c : Thread nD τ).loc main_arg5)
abbrev bhid (c : Dev nD) : FVec Ideal S128 .f32 := m ((c : Thread nD τ).loc main_arg6)
abbrev src (c : Dev nD) : IVec S800000 32 := m ((c : Thread nD τ).loc main_arg7)
abbrev dst (c : Dev nD) : IVec S800000 32 := m ((c : Thread nD τ).loc main_arg8)

/-- The per-node sums of incoming messages: the messages scatter-added, by destination index, into zeros. -/
def nodeSum (c : Dev nD) : FVec Ideal S50000x128 .f32 :=
  Host.scatterAdd scatter_S50000x128_S800000x1_S800000x128_1_0_0_1
    (broadcastInDim S50000x128 ![] bcast_S_S50000x128 (constant (F := Ideal) S_ .f32 0x00000000#32))
    (broadcastInDim S800000x1 ![0] bcast_S800000_S800000x1_0 (dst m c))
    (msg m c)

/-- The source indices as the gather takes them: a negative index wrapped by the node count, one index per row. -/
def srcIdx (c : Dev nD) : IVec S800000x1 32 :=
  broadcastInDim S800000x1 ![0] bcast_S800000_S800000x1_0
    (select (cmpi .slt (src m c) (broadcastInDim S800000 ![] bcast_S_S800000 (constantI S_ 32 0#32)))
      (addi (src m c) (broadcastInDim S800000 ![] bcast_S_S800000 (constantI S_ 32 50000#32)))
      (src m c))

/-- The node-side table as the program computes it. -/
def tableArr (c : Dev nD) : FVec Ideal S50000x128 .f32 :=
  addf (F := Ideal) (Host.dotGeneral dot_S50000x128_S128x128_S50000x128_1_0_0_1_n_n none (nf m c)
      (extractStridedSlice S128x128 ![0, 0] (win m c) slices_S144x128_S128x128_0_0))
    (Host.dotGeneral dot_S50000x128_S128x128_S50000x128_1_0_0_1_n_n none (nodeSum m c) (whid m c))

/-- The region finds the gathered table in the first window's array. -/
theorem V_v14 (c : Dev nD) : (V m c main_v14 : S800000x128.Idx → EReal)
    = Host.gather gather_S50000x128_S800000x1_S800000x128_1_0_n_n_0_1_1128 (tableArr m c) (srcIdx m c) := by
  unfold V; after_results_simp; rfl

/-- The region finds the lower 16 rows of the input weights in the fourth window's array. -/
theorem V_v4 (c : Dev nD) : (V m c main_v4 : S16x128.Idx → EReal)
    = extractStridedSlice S16x128 ![128, 0] (win m c) slices_S144x128_S16x128_128_0 := by
  unfold V; after_results

/-- The region finds the summed bias, as one row, in the sixth window's array. -/
theorem V_v16 (c : Dev nD) : (V m c main_v16 : S1x128.Idx → EReal)
    = shapeCast S1x128 (addf (F := Ideal) (bin m c) (bhid m c)) shapeCasts_S128_S1x128 := by
  unfold V; after_results; rfl

/-! ## Read at an entry -/

/-- The program's gather is a gather of rows. -/
theorem isRow_gather : Cert.GatherRows.IsRow (N := 50000) (E := 800000) (D := 128)
    gather_S50000x128_S800000x1_S800000x128_1_0_n_n_0_1_1128 :=
  ⟨rfl, rfl, rfl, rfl, rfl, rfl, rfl⟩

/-- The node-side products are plain [50000, 128] by [128, 128] products. -/
theorem plain_node : Cert.PlainDot.IsPlain (A := 50000) (K := 128) (B := 128) dot_S50000x128_S128x128_S50000x128_1_0_0_1_n_n :=
  ⟨rfl, rfl, rfl, rfl, rfl, rfl⟩

/-- The table row that edge `e` reads: its source index, wrapped, read signed and clamped into the node range. -/
def srcRow (c : Dev nD) (e : Fin 800000) : Fin 50000 :=
  Cert.GatherRows.row (N := 50000) (by decide) (srcIdx m c) e

/-- A host product of plain shape at an entry. -/
theorem hostDot_apply {A K B : Nat} (d : Cert.PlainDot.Dot2 A K B) (hd : Cert.PlainDot.IsPlain d)
    (l : FVec Ideal (⟨2, ![A, K]⟩ : Shape) .f32) (r : FVec Ideal (⟨2, ![K, B]⟩ : Shape) .f32) (i : (⟨2, ![A, B]⟩ : Shape).Idx) :
    Host.dotGeneral d none l r i = ∑ k : Fin K, l (ix2 (i 0) k) * r (ix2 k (i 1)) := by
  simp only [Host.dotGeneral]
  exact Cert.PlainDot.dotGeneral_plain d hd _ _ l r i

/-- The table as computed is the table of the specification. -/
theorem tableArr_apply (c : Dev nD) (n : Fin 50000) (q : Fin 128) :
    tableArr m c (ix2 n q) = Cert.EdgeSpec.table (nf m c) (nodeSum m c)
      (win m c) (whid m c) n q := by
  unfold tableArr Cert.EdgeSpec.table
  rw [addf_apply]
  refine congrArg₂ (· + ·) ?_ ?_
  · refine (hostDot_apply (A := 50000) (K := 128) (B := 128) _ plain_node _ _ (ix2 n q)).trans
      (Finset.sum_congr rfl fun k _ => congrArg (_ * ·) ?_)
    exact extractStridedSlice_apply ![0, 0] _ slices_S144x128_S128x128_0_0 (ix2 k q) (ix2 (Cert.EdgeSpec.nodeRow k) q)
      (fun a => by
        match a with
        | ⟨0, _⟩ => show k.val = 0 + k.val; omega
        | ⟨1, _⟩ => show q.val = 0 + q.val; omega)
  · exact hostDot_apply (A := 50000) (K := 128) (B := 128) _ plain_node _ _ (ix2 n q)

/-- The first window's array at (e, q): the table at edge e's source row. -/
theorem V_v14_apply (c : Dev nD) (e : Fin 800000) (q : Fin 128) :
    (V m c main_v14 : S800000x128.Idx → EReal) (ix2 e q)
      = Cert.EdgeSpec.table (nf m c) (nodeSum m c)
          (win m c) (whid m c) (srcRow m c e) q := by
  rw [V_v14]
  refine (Cert.GatherRows.gather_row (N := 50000) (E := 800000) (D := 128) _ isRow_gather (by decide) (tableArr m c)
    (srcIdx m c) e q).trans ?_
  exact tableArr_apply m c _ q

/-- The fourth window's array at (j, q): the input weights at row 128 + j. -/
theorem V_v4_apply (c : Dev nD) (j : Fin 16) (q : Fin 128) :
    (V m c main_v4 : S16x128.Idx → EReal) (ix2 j q)
      = (win m c) (ix2 (Cert.EdgeSpec.edgeRow j) q) := by
  rw [V_v4]
  exact extractStridedSlice_apply ![128, 0] _ slices_S144x128_S16x128_128_0 (ix2 j q) (ix2 (Cert.EdgeSpec.edgeRow j) q)
    (fun a => by
      match a with
      | ⟨0, _⟩ => rfl
      | ⟨1, _⟩ => show q.val = 0 + q.val; omega)

/-- The sixth window's array at (0, q): the two biases at q, added. -/
theorem V_v16_apply (c : Dev nD) (q : Fin 128) :
    (V m c main_v16 : S1x128.Idx → EReal) (ix2 0 q)
      = (bin m c) (ix1 q)
        + (bhid m c) (ix1 q) := by
  rw [V_v16]
  refine (shapeCast_addUnit_apply ![128] _ shapeCasts_S128_S1x128 (ix2 0 q)).trans ?_
  have hq : (fun a : Fin 1 => (ix2 (0 : Fin 1) q) a.succ) = ix1 q := funext fun a => by
    match a with
    | ⟨0, _⟩ => rfl
  rw [hq]
  rfl

end Cert.KernelIdeal.HostSide
-- ==== Proof.KernelValue.lean ====
/-
  The kernel program's result array is the edge update of the specification.

  The region runs over 125 grid points. At point t it stages rows 6400·t … 6400·t + 6399 of the gathered table, of the
  edge features and of the messages, and the whole of the weight slice, the hidden weights and the bias row; the body
  stores one block, which is written back to the same 6400 rows of the result. So entry (p, q) of what point t writes
  back is the body's value at (p, q) with every row read at edge e = 6400·t + p, and that is the specification's
  edge update at (e, q). The 125 blocks tile the 800000 rows, so the result array is the specification's array.
-/
import proofs.«152897_j7876970021288_2_alg».proof.Proof.Gen.KernelIdeal.Value
import proofs.«152897_j7876970021288_2_alg».proof.Proof.KernelPayload
import proofs.«152897_j7876970021288_2_alg».proof.Proof.KernelHost
import proofs.«152897_j7876970021288_2_alg».proof.Proof.Spec
import Idealize.ShloMosaic.Lib.Pipeline.Value
import Idealize.ShloMosaic.Lib.ValueIdx

noncomputable section
open scoped BigOperators
namespace Cert.KernelIdeal.EdgeValue
open Cert.KernelIdeal Cert.KernelIdeal.Gen Cert.KernelIdeal.HostSide Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

/-- The result array: the specification's edge update of the argument arrays, with the program's node sums and
    source rows. -/
def result (c : Dev nD) : S800000x128.Idx → EReal :=
  Cert.EdgeSpec.edgeArr (nf m c) (nodeSum m c) (ef m c) (msg m c) (win m c) (bin m c) (whid m c) (bhid m c) (srcRow m c)

theorem hz : (![0, 0] : Fin 2 → Nat) = fun _ => 0 := funext fun a => by fin_cases a <;> rfl

/-- The printed index maps over the grid: the three row-blocked inputs and the output are at block (t, 0), the three
    whole-array inputs at block (0, 0). -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = t.val ∧ win0_6.index t (1 : Fin 2) = 0 :=
  (by decide +kernel : ∀ t : Fin grid0.N, _)

/-- The edge at row p of point t's block. -/
def edgeOf (t : Fin cfg0.N) (p : Fin 6400) : Fin 800000 :=
  ⟨6400 * t.val + p.val, by have := t.isLt; have hN : cfg0.N = 125 := N_0; have := p.isLt; omega⟩

/-! ## The input blocks, read off the arrays the region finds -/

theorem iblk0_apply (c : Dev nD) (t : Fin cfg0.N) (p : Fin 6400) (q : Fin 128) :
    (iblk m c 0 t : Vec Ideal S6400x128 .f32) (ix2 p q) = (V m c main_v14 : S800000x128.Idx → EReal) (ix2 (edgeOf t p) q) := by
  obtain ⟨e0, e1, -⟩ := idx_facts t
  unfold iblk
  rw [View.read_apply]
  show (V m c main_v14 : S800000x128.Idx → EReal) _ = _
  congr 1
  funext a; apply Fin.ext
  match a with
  | ⟨0, _⟩ => show win0_0.index t (0 : Fin 2) * 6400 + 1 * p.val = 6400 * t.val + p.val; rw [e0]; omega
  | ⟨1, _⟩ => show win0_0.index t (1 : Fin 2) * 128 + 1 * q.val = q.val; rw [e1]; omega

theorem iblk1_apply (c : Dev nD) (t : Fin cfg0.N) (p : Fin 6400) (j : Fin 16) :
    (iblk m c 1 t : Vec Ideal S6400x16 .f32) (ix2 p j) = ef m c (ix2 (edgeOf t p) j) := by
  obtain ⟨-, -, e0, e1, -⟩ := idx_facts t
  unfold iblk
  rw [View.read_apply]
  show (V m c main_arg1 : S800000x16.Idx → EReal) _ = _
  rw [V_main_arg1]
  show (ef m c) _ = _
  congr 1
  funext a; apply Fin.ext
  match a with
  | ⟨0, _⟩ => show win0_1.index t (0 : Fin 2) * 6400 + 1 * p.val = 6400 * t.val + p.val; rw [e0]; omega
  | ⟨1, _⟩ => show win0_1.index t (1 : Fin 2) * 16 + 1 * j.val = j.val; rw [e1]; omega

theorem iblk2_apply (c : Dev nD) (t : Fin cfg0.N) (p : Fin 6400) (k : Fin 128) :
    (iblk m c 2 t : Vec Ideal S6400x128 .f32) (ix2 p k) = msg m c (ix2 (edgeOf t p) k) := by
  obtain ⟨-, -, -, -, e0, e1, -⟩ := idx_facts t
  unfold iblk
  rw [View.read_apply]
  show (V m c main_arg2 : S800000x128.Idx → EReal) _ = _
  rw [V_main_arg2]
  show (msg m c) _ = _
  congr 1
  funext a; apply Fin.ext
  match a with
  | ⟨0, _⟩ => show win0_2.index t (0 : Fin 2) * 6400 + 1 * p.val = 6400 * t.val + p.val; rw [e0]; omega
  | ⟨1, _⟩ => show win0_2.index t (1 : Fin 2) * 128 + 1 * k.val = k.val; rw [e1]; omega

theorem iblk3_apply (c : Dev nD) (t : Fin cfg0.N) (j : Fin 16) (q : Fin 128) :
    (iblk m c 3 t : Vec Ideal S16x128 .f32) (ix2 j q) = (V m c main_v4 : S16x128.Idx → EReal) (ix2 j q) := by
  obtain ⟨-, -, -, -, -, -, e0, e1, -⟩ := idx_facts t
  unfold iblk
  rw [View.read_apply]
  show (V m c main_v4 : S16x128.Idx → EReal) _ = _
  congr 1
  funext a; apply Fin.ext
  match a with
  | ⟨0, _⟩ => show win0_3.index t (0 : Fin 2) * 16 + 1 * j.val = j.val; rw [e0]; omega
  | ⟨1, _⟩ => show win0_3.index t (1 : Fin 2) * 128 + 1 * q.val = q.val; rw [e1]; omega

theorem iblk4_apply (c : Dev nD) (t : Fin cfg0.N) (k : Fin 128) (q : Fin 128) :
    (iblk m c 4 t : Vec Ideal S128x128 .f32) (ix2 k q) = whid m c (ix2 k q) := by
  obtain ⟨-, -, -, -, -, -, -, -, e0, e1, -⟩ := idx_facts t
  unfold iblk
  rw [View.read_apply]
  show (V m c main_arg5 : S128x128.Idx → EReal) _ = _
  rw [V_main_arg5]
  show (whid m c) _ = _
  congr 1
  funext a; apply Fin.ext
  match a with
  | ⟨0, _⟩ => show win0_4.index t (0 : Fin 2) * 128 + 1 * k.val = k.val; rw [e0]; omega
  | ⟨1, _⟩ => show win0_4.index t (1 : Fin 2) * 128 + 1 * q.val = q.val; rw [e1]; omega

theorem iblk5_apply (c : Dev nD) (t : Fin cfg0.N) (q : Fin 128) :
    (iblk m c 5 t : Vec Ideal S1x128 .f32) (ix2 0 q) = (V m c main_v16 : S1x128.Idx → EReal) (ix2 0 q) := by
  obtain ⟨-, -, -, -, -, -, -, -, -, -, e0, e1, -⟩ := idx_facts t
  unfold iblk
  rw [View.read_apply]
  show (V m c main_v16 : S1x128.Idx → EReal) _ = _
  congr 1
  funext a; apply Fin.ext
  match a with
  | ⟨0, _⟩ => show win0_5.index t (0 : Fin 2) * 1 + 1 * 0 = 0; rw [e0]
  | ⟨1, _⟩ => show win0_5.index t (1 : Fin 2) * 128 + 1 * q.val = q.val; rw [e1]; omega

/-! ## What a point writes back, the cover, and the run -/

set_option maxHeartbeats 1000000 in
/-- WHAT POINT `t` WRITES BACK is block `t` of the result array. -/
theorem flushed_eq (c : Dev nD) (t : Fin cfg0.N) :
    (dats m 0 c).flushed 6 t = ((cfg0.win 6).blk t).view.read (Elt Ideal) (result m c) := by
  show (cfg0.win 6).cut (grid0.coords t) ((dats m 0 c).after 6 t) = _
  rw [after0_6]
  unfold out0_6
  rw [View.canon_unit_zero hz]
  simp only [View.ld_unit_zero (S := S6400x128) hz, View.ld_unit_zero (S := S6400x16) hz, View.ld_unit_zero (S := S16x128) hz,
    View.ld_unit_zero (S := S128x128) hz, View.ld_unit_zero (S := S1x128) hz]
  obtain ⟨-, -, -, -, -, -, -, -, -, -, -, -, e0, e1⟩ := idx_facts t
  refine funext fun (j : S6400x128.Idx) => ?_
  obtain ⟨p, q, rfl⟩ : ∃ (p : Fin 6400) (q : Fin 128), j = ix2 p q := ⟨j 0, j 1, eq_ix2 j⟩
  have hemb : ((cfg0.win 6).blk t).view.emb (ix2 p q) = ix2 (edgeOf t p) q := by
    funext a; apply Fin.ext
    match a with
    | ⟨0, _⟩ => show win0_6.index t (0 : Fin 2) * 6400 + 1 * p.val = 6400 * t.val + p.val; rw [e0]; omega
    | ⟨1, _⟩ => show win0_6.index t (1 : Fin 2) * 128 + 1 * q.val = q.val; rw [e1]; omega
  show k0_pay1 (F := Ideal) (iblk m c 0 t) (iblk m c 1 t) (iblk m c 2 t) (iblk m c 3 t) (iblk m c 4 t) (iblk m c 5 t) (ix2 p q)
    = result m c (((cfg0.win 6).blk t).view.emb (ix2 p q))
  rw [hemb]
  have t0 : (iblk m c 0 t : Vec Ideal S6400x128 .f32) (ix2 p q)
      = Cert.EdgeSpec.table (nf m c) (nodeSum m c) (win m c) (whid m c) (srcRow m c (edgeOf t p)) q := by
    rw [iblk0_apply, V_v14_apply]
  have t5 : (iblk m c 5 t : Vec Ideal S1x128 .f32) (ix2 0 q) = bin m c (ix1 q) + bhid m c (ix1 q) := by
    rw [iblk5_apply, V_v16_apply]
  exact (Cert.KernelIdeal.Payload.point_eq (iblk m c 0 t) (iblk m c 1 t) (iblk m c 2 t) (iblk m c 3 t) (iblk m c 4 t)
    (iblk m c 5 t) p q
    (Cert.EdgeSpec.table (nf m c) (nodeSum m c) (win m c) (whid m c) (srcRow m c (edgeOf t p)) q)
    (fun j => ef m c (ix2 (edgeOf t p) j)) (fun j => win m c (ix2 (Cert.EdgeSpec.edgeRow j) q))
    (fun k => msg m c (ix2 (edgeOf t p) k)) (fun k => whid m c (ix2 k q)) (bin m c (ix1 q) + bhid m c (ix1 q))
    t0 (fun j => iblk1_apply m c t p j) (fun j => (iblk3_apply m c t j q).trans (V_v4_apply m c j q))
    (fun k => iblk2_apply m c t p k) (fun k => iblk4_apply m c t k q) t5).trans rfl

/-- An index of the result is in point `t`'s block iff each coordinate is in the block's range on its axis. -/
theorem mem_blk (t : Fin cfg0.N) (i : S800000x128.Idx) :
    i ∈ ((cfg0.win 6).blk t).view.set ↔ ∀ a : Fin 2, win0_6.index t a * S6400x128.size a ≤ (i a).val
      ∧ (i a).val < win0_6.index t a * S6400x128.size a + S6400x128.size a := by
  show i ∈ ((View.whole main_v17).slice (win0_6.rect t)).set ↔ _
  rw [View.set_slice_whole, Rect.mem_set_unit]
  exact Iff.rfl

/-- Every index of the result is in some point's block: row r is in the block of point r / 6400. -/
theorem cover (i : S800000x128.Idx) :
    ∃ t : Fin cfg0.N, (cfg0.win 6).flush t = true ∧ i ∈ ((cfg0.win 6).blk t).view.set := by
  have hi0 : (i 0).val < 800000 := (i 0).isLt
  have hi1 : (i 1).val < 128 := (i 1).isLt
  have hN : cfg0.N = 125 := N_0
  have hlt : (i 0).val / 6400 < cfg0.N := by omega
  obtain ⟨-, -, -, -, -, -, -, -, -, -, -, -, e0, e1⟩ := idx_facts ⟨(i 0).val / 6400, hlt⟩
  refine ⟨⟨(i 0).val / 6400, hlt⟩, flush0_6 _, ?_⟩
  rw [mem_blk]
  intro a
  match a with
  | ⟨0, _⟩ =>
    show win0_6.index ⟨(i 0).val / 6400, hlt⟩ (0 : Fin 2) * 6400 ≤ (i 0).val
      ∧ (i 0).val < win0_6.index ⟨(i 0).val / 6400, hlt⟩ (0 : Fin 2) * 6400 + 6400
    rw [e0]
    show (i 0).val / 6400 * 6400 ≤ (i 0).val ∧ (i 0).val < (i 0).val / 6400 * 6400 + 6400
    omega
  | ⟨1, _⟩ =>
    show win0_6.index ⟨(i 0).val / 6400, hlt⟩ (1 : Fin 2) * 128 ≤ (i 1).val
      ∧ (i 1).val < win0_6.index ⟨(i 0).val / 6400, hlt⟩ (1 : Fin 2) * 128 + 128
    rw [e1]
    omega

/-- The result array after the run. -/
theorem final (c : Dev nD) : (dats m 0 c).arrAt 6 cfg0.N = result m c :=
  (dats m 0 c).arrAt_eq_of_cover 6 (result m c) (fun t _ => flushed_eq m c t) cover

/-- The kernel program's run: the result array ends at the specification's array, the arguments unchanged. -/
theorem run : θ_run defs (onTc (τ := τ) (main (F := Ideal))) ⟨m, fun _ => 0, ρ⟩ fun r => ∀ c : Dev nD,
      r.2.mem ((c : Thread nD τ).loc main_v17) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8) :=
  (θ_run defs _ _).mono (fun r h c => ⟨(h c).1.trans (final m c), (h c).2⟩) (Cert.KernelIdeal.Value.run_blocks m ρ)

end Cert.KernelIdeal.EdgeValue
-- ==== Proof.LibScatterReal.lean ====
/-
  A host scatter-add of real numbers is real.

  At the exact extended-real reading the host's accumulating scatter puts, at each element of the operand, the
  operand's element plus the sum of the updates that land there. A finite sum of real numbers is real, so if the
  operand and the updates hold only real numbers, so does the result. Stated for arbitrary shapes and dimension
  numbers.
-/
import proofs.«152897_j7876970021288_2_alg».proof.Proof.LibScatterAddRows
import Idealize.ShloMosaic.PureOps.Contract
import Idealize.ShloMosaic.PureOps.Ideal

noncomputable section
namespace Cert.ScatterReal
open Idealize.ShloMosaic Cert.PrefixA

variable {s si su : Shape} {w : Nat}

/-- The host's scatter-add at the exact reading is the sum form. -/
theorem scatterAdd_eq (d : ScatterDims s si su) (x : FVec Ideal s .f32) (idx : IVec si w) (upd : FVec Ideal su .f32) :
    Host.scatterAdd d x idx upd = Ideal.hostScatterAdd d x idx upd := rfl

/-- A host scatter-add of real updates into a real array is real. -/
theorem isReal_scatterAdd (d : ScatterDims s si su) (x : FVec Ideal s .f32) (idx : IVec si w) (upd : FVec Ideal su .f32)
    (hx : ∀ i, IsReal (x i)) (hu : ∀ j, IsReal (upd j)) (i : s.Idx) : IsReal (Host.scatterAdd d x idx upd i) := by
  rw [scatterAdd_eq]
  exact isReal_hostScatterAdd d x idx upd hx hu i

end Cert.ScatterReal
-- ==== Proof.Law.lean ====
/-
  The linearity law that joins the two arrangements of the edge update.

  Fix one edge e with source row s and one output column. Write a for the row of node features at s (128 entries),
  b for the row of summed messages at s, m for the edge's own message row, x for the edge's feature row (16 entries),
  w for the output column of the input weights (144 entries: the first 128 meet the node features, the last 16 the
  edge features), h for the output column of the hidden weights, and β, γ for the two biases. One arrangement
  multiplies the node-side rows first and gathers afterwards,

      ((Σ a·w₁ + Σ b·h) + Σ x·w₂) − Σ m·h + (β + γ),

  the other joins the node and edge features into one row c of 144 entries and subtracts the message before
  multiplying,

      ((Σ c·w + β) + Σ (b − m)·h) + γ.

  Over the real numbers these are equal: the sum over 144 entries splits into its first 128 and last 16 terms,
  and (b − m)·h = b·h − m·h term by term. On the extended reals the second step needs every entry to be a real
  number (∞ − ∞ is not cancelled there), which is what the hypotheses say.
-/
import proofs.«152897_j7876970021288_2_alg».proof.Proof.LibScatterAddRows

noncomputable section
open scoped BigOperators
namespace Cert.EdgeLaw
open Cert.PrefixA

/-- A finite sum of coerced real numbers is the coerced sum. -/
theorem coe_sum {ι : Type} (s : Finset ι) (f : ι → ℝ) : ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

/-- A family of real-valued extended reals is the coercion of a real family. -/
theorem exists_real {ι : Type} (f : ι → EReal) (h : ∀ i, IsReal (f i)) : ∃ g : ι → ℝ, f = fun i => ((g i : ℝ) : EReal) := by
  choose g hg using h
  exact ⟨g, funext hg⟩

/-- The law over the real numbers. -/
theorem law_real (a b m h : Fin 128 → ℝ) (x : Fin 16 → ℝ) (w : Fin (128 + 16) → ℝ) (β γ : ℝ) :
    ((∑ k, a k * w (Fin.castAdd 16 k) + ∑ k, b k * h k) + ∑ j, x j * w (Fin.natAdd 128 j)) - ∑ k, m k * h k + (β + γ)
      = ((∑ k, a k * w (Fin.castAdd 16 k) + ∑ j, x j * w (Fin.natAdd 128 j)) + β) + ∑ k, (b k - m k) * h k + γ := by
  simp only [sub_mul, Finset.sum_sub_distrib]
  ring

/-- The law on the extended reals, for real-valued entries; `c` is the joined row. -/
theorem law (a b m h : Fin 128 → EReal) (x : Fin 16 → EReal) (c w : Fin (128 + 16) → EReal) (β γ : EReal)
    (ha : ∀ k, IsReal (a k)) (hb : ∀ k, IsReal (b k)) (hm : ∀ k, IsReal (m k)) (hh : ∀ k, IsReal (h k))
    (hx : ∀ j, IsReal (x j)) (hw : ∀ k, IsReal (w k)) (hβ : IsReal β) (hγ : IsReal γ)
    (hc1 : ∀ k, c (Fin.castAdd 16 k) = a k) (hc2 : ∀ j, c (Fin.natAdd 128 j) = x j) :
    ((∑ k, a k * w (Fin.castAdd 16 k) + ∑ k, b k * h k) + ∑ j, x j * w (Fin.natAdd 128 j)) - ∑ k, m k * h k + (β + γ)
      = ((∑ k, c k * w k + β) + ∑ k, (b k - m k) * h k) + γ := by
  have hsplit : ∑ k, c k * w k = ∑ k, a k * w (Fin.castAdd 16 k) + ∑ j, x j * w (Fin.natAdd 128 j) := by
    rw [Fin.sum_univ_add]
    simp only [hc1, hc2]
  rw [hsplit]
  obtain ⟨a', rfl⟩ := exists_real a ha
  obtain ⟨b', rfl⟩ := exists_real b hb
  obtain ⟨m', rfl⟩ := exists_real m hm
  obtain ⟨h', rfl⟩ := exists_real h hh
  obtain ⟨x', rfl⟩ := exists_real x hx
  obtain ⟨w', rfl⟩ := exists_real w hw
  obtain ⟨β', rfl⟩ := hβ
  obtain ⟨γ', rfl⟩ := hγ
  simp only [← EReal.coe_mul, ← EReal.coe_sub, coe_sum, ← EReal.coe_add]
  exact congrArg _ (law_real a' b' m' h' x' w' β' γ')

/-- The same law with the joined row and the weight column indexed by `Fin 144`: entry k < 128 of the joined row is
    the node feature k, entry 128 + j the edge feature j. -/
theorem law144 (a b m h : Fin 128 → EReal) (x : Fin 16 → EReal) (c w : Fin 144 → EReal) (β γ : EReal)
    (ha : ∀ k, IsReal (a k)) (hb : ∀ k, IsReal (b k)) (hm : ∀ k, IsReal (m k)) (hh : ∀ k, IsReal (h k))
    (hx : ∀ j, IsReal (x j)) (hw : ∀ k, IsReal (w k)) (hβ : IsReal β) (hγ : IsReal γ)
    (hc1 : ∀ k : Fin 128, c ⟨k.val, by omega⟩ = a k) (hc2 : ∀ j : Fin 16, c ⟨128 + j.val, by omega⟩ = x j) :
    ((∑ k : Fin 128, a k * w ⟨k.val, by omega⟩ + ∑ k, b k * h k) + ∑ j : Fin 16, x j * w ⟨128 + j.val, by omega⟩)
        - ∑ k, m k * h k + (β + γ)
      = ((∑ k : Fin 144, c k * w k + β) + ∑ k, (b k - m k) * h k) + γ :=
  law a b m h x c w β γ ha hb hm hh hx hw hβ hγ hc1 hc2

end Cert.EdgeLaw
-- ==== Proof.RefPieces.lean ====
/-
  The pieces of the reference program that choose what they read by a value: its two gathers and its concatenation.

  Both gathers read the row s = row e of their operand — the source index of edge e, wrapped and clamped —, so the
  gathered node sums at (e, k) are the node sums at (s, k) and the gathered node features at (e, k) the node features
  at (s, k). The joined row of 144 entries holds the node features at s in its first 128 columns and the edge's own
  16 features after them. The node sums are real numbers when the messages are.
-/
import proofs.«152897_j7876970021288_2_alg».proof.Proof.Gen.ReferenceIdeal.Read
import proofs.«152897_j7876970021288_2_alg».proof.Proof.LibGatherRows
import proofs.«152897_j7876970021288_2_alg».proof.Proof.LibScatterAddRows
import proofs.«152897_j7876970021288_2_alg».proof.Proof.LibScatterReal
import proofs.«152897_j7876970021288_2_alg».proof.Proof.Law
import proofs.«152897_j7876970021288_2_alg».proof.Proof.Spec
import Idealize.ShloMosaic.Lib.Pipeline.Value
import Idealize.ShloMosaic.Lib.ValueIdx

noncomputable section
open scoped BigOperators
namespace Cert.ReferenceIdeal.RefValue
open Cert.ReferenceIdeal Cert.ReferenceIdeal.Gen Cert.ReferenceIdeal.Read Idealize.ShloMosaic Idealize.ShloMosaic.ValueIdx
open Cert.PrefixA (IsReal)

variable [Facts]

/-- The reference's gather is a gather of rows. -/
theorem isRow_gather : Cert.GatherRows.IsRow (N := 50000) (E := 800000) (D := 128)
    gather_S50000x128_S800000x1_S800000x128_1_0_n_n_0_1_1128 :=
  ⟨rfl, rfl, rfl, rfl, rfl, rfl, rfl⟩

/-- The source row of edge `e`. -/
def srcRow (x7 : IVec S800000 32) (e : Fin 800000) : Fin 50000 :=
  Cert.GatherRows.row (N := 50000) (by decide) (val_main_v8 (F := Ideal) x7) e

/-- The per-node sums are the messages scatter-added, by destination index, into zeros. -/
theorem v2_eq (x2 : FVec Ideal S800000x128 .f32) (x8 : IVec S800000 32) :
    val_main_v2 (F := Ideal) x2 x8 = Host.scatterAdd scatter_S50000x128_S800000x1_S800000x128_1_0_0_1
      (val_main_v0 (F := Ideal)) (val_main_v1 (F := Ideal) x8) x2 := rfl

/-- The per-node sums of messages are real numbers when the messages are. -/
theorem isReal_nodeSum (x2 : FVec Ideal S800000x128 .f32) (x8 : IVec S800000 32) (h2 : ∀ i, IsReal (x2 i)) (i : S50000x128.Idx) :
    IsReal (val_main_v2 (F := Ideal) x2 x8 i) := by
  have hz : ∀ j, IsReal (val_main_v0 (F := Ideal) j) := fun j => by
    rw [val_main_v0_apply, val_main_cst_apply, Ideal.ofBits_def]
    exact Cert.PrefixA.isReal_ofBits_zero
  rw [v2_eq]
  exact Cert.ScatterReal.isReal_scatterAdd scatter_S50000x128_S800000x1_S800000x128_1_0_0_1 (val_main_v0 (F := Ideal))
    (val_main_v1 (F := Ideal) x8) x2 hz h2 i

/-- The two gathers take the same start indices: the wrapped source indices, one per row. -/
theorem idx_eq (x7 : IVec S800000 32) : val_main_v16 (F := Ideal) x7 = val_main_v8 (F := Ideal) x7 := rfl

/-- The gathered node sums at (e, k): the node sums at the source row. -/
theorem v9_apply (x2 : FVec Ideal S800000x128 .f32) (x7 x8 : IVec S800000 32) (e : Fin 800000) (k : Fin 128) :
    val_main_v9 (F := Ideal) x2 x7 x8 (ix2 e k) = val_main_v2 (F := Ideal) x2 x8 (ix2 (srcRow x7 e) k) := by
  unfold val_main_v9 srcRow
  exact Cert.GatherRows.gather_row (N := 50000) (E := 800000) (D := 128)
    gather_S50000x128_S800000x1_S800000x128_1_0_n_n_0_1_1128 isRow_gather (by decide) (val_main_v2 (F := Ideal) x2 x8)
    (val_main_v8 (F := Ideal) x7) e k

/-- The gathered node features at (e, k): the node features at the source row. -/
theorem v17_apply (x0 : FVec Ideal S50000x128 .f32) (x7 : IVec S800000 32) (e : Fin 800000) (k : Fin 128) :
    val_main_v17 (F := Ideal) x0 x7 (ix2 e k) = x0 (ix2 (srcRow x7 e) k) := by
  unfold val_main_v17 srcRow
  rw [idx_eq]
  exact Cert.GatherRows.gather_row (N := 50000) (E := 800000) (D := 128)
    gather_S50000x128_S800000x1_S800000x128_1_0_n_n_0_1_1128 isRow_gather (by decide) x0 (val_main_v8 (F := Ideal) x7) e k

/-- The joined row at a column below 128: the node feature. -/
theorem v18_left (x0 : FVec Ideal S50000x128 .f32) (x1 : FVec Ideal S800000x16 .f32) (x7 : IVec S800000 32) (e : Fin 800000)
    (k : Fin 128) :
    val_main_v18 (F := Ideal) x0 x1 x7 (ix2 e (Cert.EdgeSpec.nodeRow k)) = x0 (ix2 (srcRow x7 e) k) := by
  unfold val_main_v18
  refine (concatenate_pair_apply_left 1 _ _ concatenates_S800000x128_S800000x16_S800000x144_d1
    (ix2 e (Cert.EdgeSpec.nodeRow k)) rfl (ix2 e k) (fun b => by
      match b with
      | ⟨0, _⟩ => rfl
      | ⟨1, _⟩ => rfl)).trans ?_
  exact v17_apply x0 x7 e k

/-- The joined row at column 128 + j: the edge feature. -/
theorem v18_right (x0 : FVec Ideal S50000x128 .f32) (x1 : FVec Ideal S800000x16 .f32) (x7 : IVec S800000 32) (e : Fin 800000)
    (j : Fin 16) :
    val_main_v18 (F := Ideal) x0 x1 x7 (ix2 e (Cert.EdgeSpec.edgeRow j)) = x1 (ix2 e j) := by
  unfold val_main_v18
  exact concatenate_pair_apply_right 1 _ _ concatenates_S800000x128_S800000x16_S800000x144_d1
    (ix2 e (Cert.EdgeSpec.edgeRow j)) rfl rfl (ix2 e j)
    (fun b hb => by
      match b, hb with
      | ⟨0, _⟩, _ => rfl
      | ⟨1, _⟩, hb => exact absurd rfl hb)
    (by show j.val + 128 = 128 + j.val; omega)

end Cert.ReferenceIdeal.RefValue
-- ==== Proof.RefValue.lean ====
/-
  The reference program's result is the edge update of the specification.

  Read at edge e and column q, the reference computes

      ((Σ_{k<144} c e k · win k q + bin q) + Σ_k (ns s k − msg e k) · whid k q) + bhid q,

  where c e is the row of node features at s = row e followed by the edge's 16 features, ns are the per-node sums of
  messages and s is the edge's source index, wrapped and clamped. Both of its gathers — of the node sums and of the
  node features — read row s. With every entry a real number this is the specification's arrangement, by the
  linearity law.
-/
import proofs.«152897_j7876970021288_2_alg».proof.Proof.RefPieces

noncomputable section
open scoped BigOperators
namespace Cert.ReferenceIdeal.RefValue
open Cert.ReferenceIdeal Cert.ReferenceIdeal.Gen Cert.ReferenceIdeal.Read Idealize.ShloMosaic Idealize.ShloMosaic.ValueIdx
open Cert.PrefixA (IsReal)

variable [Facts]

/-- THE REFERENCE AT AN ENTRY is the specification's edge update there, for real-valued arguments. -/
theorem ref_apply (x0 : FVec Ideal S50000x128 .f32) (x1 : FVec Ideal S800000x16 .f32) (x2 : FVec Ideal S800000x128 .f32)
    (x3 : FVec Ideal S144x128 .f32) (x4 : FVec Ideal S128 .f32) (x5 : FVec Ideal S128x128 .f32) (x6 : FVec Ideal S128 .f32)
    (x7 x8 : IVec S800000 32)
    (h0 : ∀ i, IsReal (x0 i)) (h1 : ∀ i, IsReal (x1 i)) (h2 : ∀ i, IsReal (x2 i)) (h3 : ∀ i, IsReal (x3 i))
    (h4 : ∀ i, IsReal (x4 i)) (h5 : ∀ i, IsReal (x5 i)) (h6 : ∀ i, IsReal (x6 i)) (e : Fin 800000) (q : Fin 128) :
    val_main_v27 (F := Ideal) x0 x1 x2 x3 x4 x5 x6 x7 x8 (ix2 e q)
      = Cert.EdgeSpec.edgeOut x0 (val_main_v2 (F := Ideal) x2 x8) x1 x2 x3 x4 x5 x6 (srcRow x7) e q := by
  have i19l : ∀ k : Fin 144, lidx_main_v19 (ix2 e q) k = ix2 e k := fun k => funext fun a => by
    match a with
    | ⟨0, _⟩ => rfl
    | ⟨1, _⟩ => rfl
  have i19r : ∀ k : Fin 144, ridx_main_v19 (ix2 e q) k = ix2 k q := fun k => funext fun a => by
    match a with
    | ⟨0, _⟩ => rfl
    | ⟨1, _⟩ => rfl
  have i23l : ∀ k : Fin 128, lidx_main_v23 (ix2 e q) k = ix2 e k := fun k => funext fun a => by
    match a with
    | ⟨0, _⟩ => rfl
    | ⟨1, _⟩ => rfl
  have i23r : ∀ k : Fin 128, ridx_main_v23 (ix2 e q) k = ix2 k q := fun k => funext fun a => by
    match a with
    | ⟨0, _⟩ => rfl
    | ⟨1, _⟩ => rfl
  have i21 : idx_main_v20 (idx_main_v21 (ix2 e q)) = ix1 q := funext fun a => by
    match a with
    | ⟨0, _⟩ => rfl
  have i26 : idx_main_v25 (idx_main_v26 (ix2 e q)) = ix1 q := funext fun a => by
    match a with
    | ⟨0, _⟩ => rfl
  have e10 : ∀ k : Fin 128, val_main_v10 (F := Ideal) x2 x7 x8 (ix2 e k)
      = val_main_v2 (F := Ideal) x2 x8 (ix2 (srcRow x7 e) k) - x2 (ix2 e k) := fun k => by
    rw [val_main_v10_apply, v9_apply]; rfl
  rw [val_main_v27_apply, val_main_v24_apply, val_main_v22_apply, val_main_v19_apply, val_main_v23_apply,
    val_main_v21_apply, val_main_v20_apply, val_main_v26_apply, val_main_v25_apply]
  simp only [i19l, i19r, i23l, i23r, i21, i26, e10]
  have L := Cert.EdgeLaw.law144 (fun k : Fin 128 => x0 (ix2 (srcRow x7 e) k))
    (fun k : Fin 128 => val_main_v2 (F := Ideal) x2 x8 (ix2 (srcRow x7 e) k))
    (fun k : Fin 128 => x2 (ix2 e k)) (fun k : Fin 128 => x5 (ix2 k q)) (fun j : Fin 16 => x1 (ix2 e j))
    (fun k : Fin 144 => val_main_v18 (F := Ideal) x0 x1 x7 (ix2 e k)) (fun k : Fin 144 => x3 (ix2 k q))
    (x4 (ix1 q)) (x6 (ix1 q))
    (fun k => h0 _) (fun k => isReal_nodeSum x2 x8 h2 _) (fun k => h2 _) (fun k => h5 _) (fun j => h1 _) (fun k => h3 _)
    (h4 _) (h6 _) (fun k => v18_left x0 x1 x7 e k) (fun j => v18_right x0 x1 x7 e j)
  exact L.symm

end Cert.ReferenceIdeal.RefValue
-- ==== Proof.Same.lean ====
/-
  The two programs share their node sums and their source rows.

  Both programs scatter-add the messages by the destination indices into an array of zeros, and both wrap a negative
  source index by the node count and gather at the result; the operations, their dimension numbers and their operands
  are the same on the two sides, so the per-node sums are the same array and the source row of an edge the same row.
-/
import proofs.«152897_j7876970021288_2_alg».proof.Proof.KernelHost
import proofs.«152897_j7876970021288_2_alg».proof.Proof.RefPieces

noncomputable section
namespace Cert.Proof.Same
open Idealize.ShloMosaic Idealize.ShloMosaic.TcCoe Idealize.SL.Sem

variable (m : (ℓ : Loc Cert.KernelIdeal.nD Cert.KernelIdeal.τ Cert.KernelIdeal.sig) → Buf (Elt Ideal) ℓ)

/-- The reference's node sums of the kernel program's argument arrays are the kernel program's node sums. -/
theorem nodeSum_eq (c : Dev Cert.KernelIdeal.nD) :
    Cert.ReferenceIdeal.Read.val_main_v2 (F := Ideal) (Cert.KernelIdeal.HostSide.msg m c) (Cert.KernelIdeal.HostSide.dst m c)
      = Cert.KernelIdeal.HostSide.nodeSum m c := by
  rw [Cert.ReferenceIdeal.RefValue.v2_eq]
  rfl

/-- The start indices of the reference's gathers are those of the kernel program's gather. -/
theorem srcIdx_eq (c : Dev Cert.KernelIdeal.nD) :
    Cert.ReferenceIdeal.Read.val_main_v8 (F := Ideal) (Cert.KernelIdeal.HostSide.src m c) = Cert.KernelIdeal.HostSide.srcIdx m c :=
  rfl

/-- So an edge's source row is the same on the two sides. -/
theorem srcRow_eq (c : Dev Cert.KernelIdeal.nD) :
    Cert.ReferenceIdeal.RefValue.srcRow (Cert.KernelIdeal.HostSide.src m c) = Cert.KernelIdeal.HostSide.srcRow m c := by
  funext e
  unfold Cert.ReferenceIdeal.RefValue.srcRow Cert.KernelIdeal.HostSide.srcRow
  rw [srcIdx_eq]

end Cert.Proof.Same
-- ==== Proof.lean ====
/-
  The certificate of the edge-update kernel against its reference.

  Both programs first scatter-add the messages into per-node sums and read node rows at the edges' source indices
  (wrapped when negative, clamped into the node range); both do it with the same operations on the same operands, so
  the node sums ns and the source row s = row e of an edge e are the same on the two sides.

  The reference joins the node features at s with the edge's features into one row of 144 entries, multiplies it by
  the input weights, adds the input bias, multiplies (ns s − msg e) by the hidden weights and adds the hidden bias.
  The kernel program multiplies on the node side first — a table T n = nf n · win[0:128] + ns n · whid —, gathers
  T at s, and in the region computes T s + ef e · win[128:144] − msg e · whid + (bin + bhid), block by block over
  6400 edges at a time. On real numbers the two are equal by linearity of the products; the precondition makes every
  floating-point entry a real number, so the law holds on the extended reals too.

  The frames of the two kernel programs are the generated ones; the reference's frame is its generated run. No
  operation was rewritten by the idealization, so that claim is trivial. For the value claim the kernel side is the
  generated blockwise run re-posted at the specification's array (Proof/KernelValue.lean) and the reference side its
  generated run read entry by entry (Proof/RefValue.lean); both are posted at the same array.
-/
import proofs.«152897_j7876970021288_2_alg».proof.Defs
import proofs.«152897_j7876970021288_2_alg».proof.Proof.Gen.Kernel
import proofs.«152897_j7876970021288_2_alg».proof.Proof.Gen.Kernel.Skeleton
import proofs.«152897_j7876970021288_2_alg».proof.Proof.Gen.Kernel.Launch
import proofs.«152897_j7876970021288_2_alg».proof.Proof.Gen.Kernel.Points
import proofs.«152897_j7876970021288_2_alg».proof.Proof.Gen.Kernel.Frame
import proofs.«152897_j7876970021288_2_alg».proof.Proof.Gen.KernelIdeal
import proofs.«152897_j7876970021288_2_alg».proof.Proof.Gen.KernelIdeal.Skeleton
import proofs.«152897_j7876970021288_2_alg».proof.Proof.Gen.KernelIdeal.Launch
import proofs.«152897_j7876970021288_2_alg».proof.Proof.Gen.KernelIdeal.Points
import proofs.«152897_j7876970021288_2_alg».proof.Proof.Gen.KernelIdeal.Frame
import proofs.«152897_j7876970021288_2_alg».proof.Proof.Gen.ReferenceIdeal
import proofs.«152897_j7876970021288_2_alg».proof.Proof.Gen.KernelIdeal.Value
import proofs.«152897_j7876970021288_2_alg».proof.Proof.Gen.ReferenceIdeal.Run
import proofs.«152897_j7876970021288_2_alg».proof.Proof.Gen.ReferenceIdeal.Read
import proofs.«152897_j7876970021288_2_alg».proof.Proof.Gen.Pre_finite_inputs
import proofs.«152897_j7876970021288_2_alg».proof.Proof.Finite
import proofs.«152897_j7876970021288_2_alg».proof.Proof.KernelValue
import proofs.«152897_j7876970021288_2_alg».proof.Proof.RefValue
import proofs.«152897_j7876970021288_2_alg».proof.Proof.Same
import Idealize.ShloMosaic.Adequacy
import Idealize.ShloMosaic.Init

noncomputable section

namespace Cert.Proof

open Idealize.ShloMosaic Idealize.ShloMosaic.ValueIdx Idealize.SL.Sem

/-- The two word-level and idealized kernel programs run, fault-free, and leave their arguments unchanged. -/
theorem frame_k : Cert.frame_Kernel := fun m ρ _ => Cert.Kernel.Gen.frame m ρ
theorem frame_ki : Cert.frame_KernelIdeal := fun m ρ _ => Cert.KernelIdeal.Gen.frame m ρ

/-- The reference runs and leaves its arguments unchanged: its run, with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- The reference's result term over real-valued arguments is the specification's array with the kernel program's
    node sums and source rows: entry by entry the reference is the specification (`ref_apply`), and the two programs'
    node sums and source rows are the same (Proof/Same.lean). -/
theorem ref_eq_result (m : (ℓ : Loc Cert.KernelIdeal.nD Cert.KernelIdeal.τ Cert.KernelIdeal.sig) → Buf (Elt Ideal) ℓ)
    (c : Dev Cert.KernelIdeal.nD)
    (hpre : Cert.Pre_finite_inputs.fn (F := Ideal) (Cert.KernelIdeal.HostSide.nf m c) (Cert.KernelIdeal.HostSide.ef m c)
      (Cert.KernelIdeal.HostSide.msg m c) (Cert.KernelIdeal.HostSide.win m c) (Cert.KernelIdeal.HostSide.bin m c)
      (Cert.KernelIdeal.HostSide.whid m c) (Cert.KernelIdeal.HostSide.bhid m c) (Cert.KernelIdeal.HostSide.src m c)
      (Cert.KernelIdeal.HostSide.dst m c) = fun _ => 1#1) :
    Cert.ReferenceIdeal.Read.val_main_v27 (F := Ideal) (Cert.KernelIdeal.HostSide.nf m c) (Cert.KernelIdeal.HostSide.ef m c)
      (Cert.KernelIdeal.HostSide.msg m c) (Cert.KernelIdeal.HostSide.win m c) (Cert.KernelIdeal.HostSide.bin m c)
      (Cert.KernelIdeal.HostSide.whid m c) (Cert.KernelIdeal.HostSide.bhid m c) (Cert.KernelIdeal.HostSide.src m c)
      (Cert.KernelIdeal.HostSide.dst m c)
    = Cert.KernelIdeal.EdgeValue.result m c := by
  obtain ⟨h0, h1, h2, h3, h4, h5, h6⟩ := Cert.FiniteInputs.inputs_real _ _ _ _ _ _ _ _ _ hpre
  funext i
  obtain ⟨e, q, rfl⟩ : ∃ (e : Fin 800000) (q : Fin 128), i = ix2 e q := ⟨i 0, i 1, eq_ix2 i⟩
  rw [Cert.ReferenceIdeal.RefValue.ref_apply _ _ _ _ _ _ _ _ _ h0 h1 h2 h3 h4 h5 h6 e q, Cert.Proof.Same.nodeSum_eq,
    Cert.Proof.Same.srcRow_eq]
  rfl

/-- The two idealized programs, run from memories agreeing on the arguments, end with the same result array. -/
theorem algebraic : Cert.algebraic_KernelIdeal_ReferenceIdeal := by
  intro m ρ m' ρ' hpre hagree
  refine ⟨fun c => Cert.KernelIdeal.EdgeValue.result m c, Cert.KernelIdeal.EdgeValue.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2.1, (hagree c).2.2.1, (hagree c).2.2.2.1, (hagree c).2.2.2.2.1, (hagree c).2.2.2.2.2.1,
    (hagree c).2.2.2.2.2.2.1, (hagree c).2.2.2.2.2.2.2.1, (hagree c).2.2.2.2.2.2.2.2]
  exact (Cert.ReferenceIdeal.Read.val_main_v27_eq _ _ _ _ _ _ _ _ _).trans (ref_eq_result m c (hpre c))

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
